-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg20 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128x10 .f32) (main_arg8 : FVec F S10 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : IVec S50000 32) (main_arg3 : FVec F S256x128 .f32) (main_arg4 : FVec F S128 .f32) (main_arg5 : FVec F S256x128 .f32) (main_arg6 : FVec F S128 .f32) (main_arg7 : FVec F S128x10 .f32) (main_arg8 : FVec F S10 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8000x128 : Shape := ⟨2, ![8000, 128]⟩
abbrev S5000x128 : Shape := ⟨2, ![5000, 128]⟩
abbrev S512x128 : Shape := ⟨2, ![512, 128]⟩
abbrev S50000x1 : Shape := ⟨2, ![50000, 1]⟩
abbrev S1x10 : Shape := ⟨2, ![1, 10]⟩
abbrev S512x10 : Shape := ⟨2, ![512, 10]⟩
abbrev S512 : Shape := ⟨1, ![512]⟩
abbrev S512x1 : Shape := ⟨2, ![512, 1]⟩

abbrev nBuf : Space → Nat
  | .hbm => 102
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S128x128, .bf16⟩
  | .hbm, ⟨48, _⟩ => ⟨S128x128, .bf16⟩
  | .hbm, ⟨49, _⟩ => ⟨S128x128, .bf16⟩
  | .hbm, ⟨50, _⟩ => ⟨S1x128, .f32⟩
  | .hbm, ⟨51, _⟩ => ⟨S1x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S128x128, .bf16⟩
  | .hbm, ⟨58, _⟩ => ⟨S128x128, .bf16⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S128x128, .bf16⟩
  | .hbm, ⟨81, _⟩ => ⟨S128x128, .bf16⟩
  | .hbm, ⟨82, _⟩ => ⟨S128x128, .bf16⟩
  | .hbm, ⟨83, _⟩ => ⟨S1x128, .f32⟩
  | .hbm, ⟨84, _⟩ => ⟨S1x128, .f32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S128x128, .bf16⟩
  | .hbm, ⟨91, _⟩ => ⟨S128x128, .bf16⟩
  | .hbm, ⟨92, _⟩ => ⟨S1x128, .f32⟩
  | .hbm, ⟨93, _⟩ => ⟨S1x128, .f32⟩
  | .hbm, ⟨94, _⟩ => ⟨S50000x128, .f32⟩
  | .hbm, ⟨95, _⟩ => ⟨S_, .f32⟩
  | .hbm, ⟨96, _⟩ => ⟨S512x128, .f32⟩
  | .hbm, ⟨97, _⟩ => ⟨S50000x1, .i32⟩
  | .hbm, ⟨98, _⟩ => ⟨S512x128, .f32⟩
  | .hbm, ⟨99, _⟩ => ⟨S128x10, .bf16⟩
  | .hbm, ⟨100, _⟩ => ⟨S1x10, .f32⟩
  | .hbm, ⟨101, _⟩ => ⟨S512x10, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S128x128, .bf16⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S8000x128, .f32⟩
  | .local _ .vmem, ⟨31, _⟩ => ⟨S8000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .bf16⟩
  | .local _ .vmem, ⟨37, _⟩ => ⟨S1x128, .f32⟩
  | .local _ .vmem, ⟨38, _⟩ => ⟨S128x128, .bf16⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S512x128, .f32⟩
  | .local _ .vmem, ⟨43, _⟩ => ⟨S128x10, .bf16⟩
  | .local _ .vmem, ⟨44, _⟩ => ⟨S1x10, .f32⟩
  | .local _ .vmem, ⟨45, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_3 : Ref sig .tc := ⟨.hbm, 62, rfl⟩
abbrev main_v36 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc4_sem0_0 : DmaSem sig := 42
abbrev cc4_sem1_0 : DmaSem sig := 43
abbrev cc4_sem2_0 : DmaSem sig := 44
abbrev cc4_sem3_0 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x128_S128x128_0_0 : S256x128.Slices ![0, 0] S128x128
  slices_S256x128_S128x128_128_0 : S256x128.Slices ![128, 0] S128x128
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x128.size a ≤ S800000x128.size a
  hwx2_7 : ∀ i : grid2.Coords, EltTy.bits .f32 = 32 ∨ (Rect.block (s := S800000x128) S8000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .bf16 = 32 ∨ (Rect.block (s := S128x10) S128x10.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x10.size a ≤ S512x10.size a
  hwx4_3 : ∀ i : grid4.Coords, EltTy.bits .f32 = 32 ∨ (Rect.block (s := S512x10) S512x10.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v14) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S8000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v67) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S512x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S512x128 : Shape := ⟨2, ![512, 128]⟩
abbrev S50000x1 : Shape := ⟨2, ![50000, 1]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x128, .f32⟩
  | 4 => ⟨S128, .f32⟩
  | 5 => ⟨S256x128, .f32⟩
  | 6 => ⟨S128, .f32⟩
  | 7 => ⟨S128x10, .f32⟩
  | 8 => ⟨S10, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x256, .f32⟩
  | 44 => ⟨S800000x128, .f32⟩
  | 45 => ⟨S1x128, .f32⟩
  | 46 => ⟨S800000x128, .f32⟩
  | 47 => ⟨S800000x128, .f32⟩
  | 48 => ⟨S800000x128, .f32⟩
  | 49 => ⟨S1x128, .f32⟩
  | 50 => ⟨S800000x128, .f32⟩
  | 51 => ⟨S800000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S_, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x256, .f32⟩
  | 100 => ⟨S800000x128, .f32⟩
  | 101 => ⟨S1x128, .f32⟩
  | 102 => ⟨S800000x128, .f32⟩
  | 103 => ⟨S800000x128, .f32⟩
  | 104 => ⟨S_, .f32⟩
  | 105 => ⟨S50000x128, .f32⟩
  | 106 => ⟨S50000x128, .f32⟩
  | 107 => ⟨S800000x128, .f32⟩
  | 108 => ⟨S1x128, .f32⟩
  | 109 => ⟨S800000x128, .f32⟩
  | 110 => ⟨S800000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S_, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S512x128, .f32⟩
  | 17 => ⟨S50000x1, .i32⟩
  | 18 => ⟨S512x128, .f32⟩
  | 19 => ⟨S512x10, .f32⟩
  | 20 => ⟨S1x10, .f32⟩
  | 21 => ⟨S512x10, .f32⟩
  | 22 => ⟨S512x10, .f32⟩
  | 23 => ⟨S_, .f32⟩
  | 24 => ⟨S512, .f32⟩
  | 25 => ⟨S_, .f32⟩
  | 26 => ⟨S512, .f32⟩
  | 27 => ⟨S512, .f32⟩
  | 28 => ⟨S512x1, .f32⟩
  | 29 => ⟨S512x10, .f32⟩
  | 30 => ⟨S512x10, .f32⟩
  | 31 => ⟨S512x10, .f32⟩
  | 32 => ⟨S_, .f32⟩
  | 33 => ⟨S512, .f32⟩
  | 34 => ⟨S512x1, .f32⟩
  | 35 => ⟨S512x1, .f32⟩
  | 36 => ⟨S512x10, .f32⟩
  | 37 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call0_cst : Ref sig .tc := ⟨.hbm, 62, rfl⟩
abbrev main_call0_v0 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call1_cst : Ref sig .tc := ⟨.hbm, 74, rfl⟩
abbrev main_call1_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_5 : Ref sig .tc := ⟨.hbm, 81, rfl⟩
abbrev main_v49 : Ref sig .tc := ⟨.hbm, 82, rfl⟩
abbrev main_v50 : Ref sig .tc := ⟨.hbm, 83, rfl⟩
abbrev main_c_6 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_7 : Ref sig .tc := ⟨.hbm, 90, rfl⟩
abbrev main_v56 : Ref sig .tc := ⟨.hbm, 91, rfl⟩
abbrev main_v57 : Ref sig .tc := ⟨.hbm, 92, rfl⟩
abbrev main_c_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_9 : Ref sig .tc := ⟨.hbm, 111, rfl⟩
abbrev main_v73 : Ref sig .tc := ⟨.hbm, 112, rfl⟩
abbrev main_v74 : Ref sig .tc := ⟨.hbm, 113, rfl⟩
abbrev main_c_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call3_cst : Ref sig .tc := ⟨.hbm, 121, rfl⟩
abbrev main_call3_v0 : Ref sig .tc := ⟨.hbm, 122, rfl⟩
abbrev main_v81 : Ref sig .tc := ⟨.hbm, 123, rfl⟩
abbrev main_cst_11 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call4_cst : Ref sig .tc := ⟨.hbm, 133, rfl⟩
abbrev main_call4_v0 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call5_cst : Ref sig .tc := ⟨.hbm, 140, rfl⟩
abbrev main_call5_v0 : Ref sig .tc := ⟨.hbm, 141, rfl⟩
abbrev main_v95 : Ref sig .tc := ⟨.hbm, 142, rfl⟩
abbrev main_cst_12 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call6_cst : Ref sig .tc := ⟨.hbm, 151, rfl⟩
abbrev main_call6_v0 : Ref sig .tc := ⟨.hbm, 152, rfl⟩
abbrev main_call6_cst_0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_call6_v5 : Ref sig .tc := ⟨.hbm, 158, rfl⟩
abbrev main_call6_v6 : Ref sig .tc := ⟨.hbm, 159, rfl⟩
abbrev main_call6_cst_1 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_v103 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.MatmulAt.lean ====
/-
  A `tpu.matmul` into a zero accumulator, read at one element on the extended reals: the plain sum over the contracted
  axis of the products of the left block's row and the right matrix's column. One lemma per block shape the kernels use
  (8000 x 128 and 5000 x 128 row blocks against 128 x 128 weights; the 512 x 128 pooled array against the 128 x 10 readout
  weights). The contracted index type of the product's record is re-indexed to `Fin 128` along the library's equivalence.
-/
import proofs.«135350_j47502338294214_1_alg».proof.Proof.Gen.KernelIdeal
import Idealize.ShloMosaic.PureOps.Ideal.Laws
import Idealize.ShloMosaic.Lib.ValueIdx

noncomputable section

namespace Cert.KernelIdeal.At

open Cert.KernelIdeal Idealize.ShloMosaic Idealize.ShloMosaic.ValueIdx

/-- Element `(p, q)` of the product of a 8000 x 128 block and a 128 x 128 matrix accumulated into zeros: `∑ k, lhs (p, k) * rhs (k, q)`. -/
theorem matmul8000_apply (lhs : FVec Ideal S8000x128 .bf16) (rhs : FVec Ideal S128x128 .bf16) (p : Fin 8000) (q : Fin 128) :
    matmul dot_S8000x128_S128x128_S8000x128_1_0_0_1_n_n none lhs rhs (constant S8000x128 .f32 0x00000000#32) (ix2 p q)
      = ∑ k : Fin 128, lhs (ix2 p k) * rhs (ix2 k q) := by
  refine (Ideal.matmul_constant_zero_apply dot_S8000x128_S128x128_S8000x128_1_0_0_1_n_n none lhs rhs (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ =>
      show (dot_S8000x128_S128x128_S8000x128_1_0_0_1_n_n.lhsIdx (ix2 p q) _ 0).val = p.val
      unfold DotDims.lhsIdx
      rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
      rfl
    | ⟨1, _⟩ => exact (dot_S8000x128_S128x128_S8000x128_1_0_0_1_n_n.lhsIdx_val_of_single rfl _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (dot_S8000x128_S128x128_S8000x128_1_0_0_1_n_n.rhsIdx_val_of_single rfl _ _).trans hk
    | ⟨1, _⟩ =>
      show (dot_S8000x128_S128x128_S8000x128_1_0_0_1_n_n.rhsIdx (ix2 p q) _ 1).val = q.val
      unfold DotDims.rhsIdx
      rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
      rfl)
  rw [el, er]

/-- Element `(p, q)` of the product of a 5000 x 128 block and a 128 x 128 matrix accumulated into zeros: `∑ k, lhs (p, k) * rhs (k, q)`. -/
theorem matmul5000_apply (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- Element `(p, q)` of the product of a 512 x 128 block and a 128 x 10 matrix accumulated into zeros: `∑ k, lhs (p, k) * rhs (k, q)`. -/
theorem matmul512_apply (lhs : FVec Ideal S512x128 .bf16) (rhs : FVec Ideal S128x10 .bf16) (p : Fin 512) (q : Fin 10) :
    matmul dot_S512x128_S128x10_S512x10_1_0_0_1_n_n none lhs rhs (constant S512x10 .f32 0x00000000#32) (ix2 p q)
      = ∑ k : Fin 128, lhs (ix2 p k) * rhs (ix2 k q) := by
  refine (Ideal.matmul_constant_zero_apply dot_S512x128_S128x10_S512x10_1_0_0_1_n_n none lhs rhs (ix2 p q)).trans ?_
  rw [← Equiv.sum_comp (contrEquiv1 dot_S512x128_S128x10_S512x10_1_0_0_1_n_n 128 rfl rfl).symm]
  refine Finset.sum_congr rfl fun k _ => ?_
  have hk := contrEquiv1_symm_val dot_S512x128_S128x10_S512x10_1_0_0_1_n_n 128 rfl rfl k
  have el : dot_S512x128_S128x10_S512x10_1_0_0_1_n_n.lhsIdx (ix2 p q) ((contrEquiv1 dot_S512x128_S128x10_S512x10_1_0_0_1_n_n 128 rfl rfl).symm k) = ix2 p k := funext fun a => Fin.ext (by
    match a with
    | ⟨0, _⟩ =>
      show (dot_S512x128_S128x10_S512x10_1_0_0_1_n_n.lhsIdx (ix2 p q) _ 0).val = p.val
      unfold DotDims.lhsIdx
      rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
      rfl
    | ⟨1, _⟩ => exact (dot_S512x128_S128x10_S512x10_1_0_0_1_n_n.lhsIdx_val_of_single rfl _ _).trans hk)
  have er : dot_S512x128_S128x10_S512x10_1_0_0_1_n_n.rhsIdx (ix2 p q) ((contrEquiv1 dot_S512x128_S128x10_S512x10_1_0_0_1_n_n 128 rfl rfl).symm k) = ix2 k q := funext fun a => Fin.ext (by
    match a with
    | ⟨0, _⟩ => exact (dot_S512x128_S128x10_S512x10_1_0_0_1_n_n.rhsIdx_val_of_single rfl _ _).trans hk
    | ⟨1, _⟩ =>
      show (dot_S512x128_S128x10_S512x10_1_0_0_1_n_n.rhsIdx (ix2 p q) _ 1).val = q.val
      unfold DotDims.rhsIdx
      rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
      rfl)
  rw [el, er]

end Cert.KernelIdeal.At

end
-- ==== Proof.Spec.lean ====
/-
  The mathematics of the network, stated once over literal shapes and the extended reals, with no program in sight.

  A message-passing layer works row by row. For one edge, with source row `xs`, destination row `xd` (128 features each),
  the edge feature is `e = xs·Wa + xd·Wb + bl`, its projection `ep = e·We + be`, and the message is `relu (h + ep)`
  where `h` is the source row itself or its `relu`. For one node, with row `h` and aggregated messages `a`, the update is the
  two-layer perceptron `relu ((h' + a)·W1 + b1)·W2 + b2`, optionally under a last `relu`. The readout of one pooled row is
  the log-softmax of `p·W + b` over the ten classes: the shifted logits less the logarithm of the sum of their exponentials.

  Every matrix product is a plain finite sum of products on the extended reals. The one algebraic fact used later is
  that a sum over 256 = 128 + 128 indices splits into its two halves (`sum_split_256`): the reference multiplies the joined
  row `[xs, xd]` by the whole 256 x 128 matrix, the kernel multiplies the halves separately and adds.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- The f32 zero word read as an extended real; kept as the word so that it is never evaluated. -/
abbrev z32 : EReal := Ideal.ofBits .f32 0x00000000#32

/-- The f32 word of minus infinity read as an extended real. -/
abbrev ninf32 : EReal := Ideal.ofBits .f32 0xFF800000#32

/-- One edge's message at feature `q`: `relu (h q + ((xs·Wa + xd·Wb + bl)·We + be) q)`, `h = xs` or `relu xs`. -/
def edgeRow (pre : Bool) (hs xs xd : Fin 128 → EReal) (Wa Wb We : Fin 128 → Fin 128 → EReal) (bl be : Fin 128 → EReal)
    (q : Fin 128) : EReal :=
  max ((if pre then max (hs q) z32 else hs q)
        + ((∑ k : Fin 128, (((∑ l : Fin 128, xs l * Wa l k) + (∑ l : Fin 128, xd l * Wb l k)) + bl k) * We k q) + be q)) z32

/-- One node's update at feature `q`: `relu ((h' + a)·W1 + b1)·W2 + b2`, `h' = h` or `relu h`, optionally under a last `relu`. -/
def nodeRow (pre post : Bool) (h a : Fin 128 → EReal) (W1 W2 : Fin 128 → Fin 128 → EReal) (b1 b2 : Fin 128 → EReal)
    (q : Fin 128) : EReal :=
  let out := (∑ k : Fin 128, max ((∑ l : Fin 128, ((if pre then max (h l) z32 else h l) + a l) * W1 l k) + b1 k) z32 * W2 k q) + b2 q
  if post then max out z32 else out

/-- The ten logits of one pooled row. -/
def logit (p : Fin 128 → EReal) (W : Fin 128 → Fin 10 → EReal) (b : Fin 10 → EReal) (c : Fin 10) : EReal :=
  (∑ k : Fin 128, p k * W k c) + b c

/-- The largest logit of a row, as the fold of `max` from minus infinity. -/
def rowMax (f : Fin 10 → EReal) : EReal := (Finset.univ : Finset (Fin 10)).fold max ninf32 f

/-- The log-softmax of a row of ten logits at class `q`. -/
def logSoftmaxRow (f : Fin 10 → EReal) (q : Fin 10) : EReal :=
  (f q - rowMax f) - Ideal.log (∑ c : Fin 10, Ideal.exp (f c - rowMax f))

/-! ## The three stages over whole arrays -/

abbrev E128 := (⟨2, ![800000, 128]⟩ : Shape).Idx → EReal
abbrev N128 := (⟨2, ![50000, 128]⟩ : Shape).Idx → EReal
abbrev M128 := (⟨2, ![128, 128]⟩ : Shape).Idx → EReal
abbrev B128 := (⟨2, ![1, 128]⟩ : Shape).Idx → EReal
abbrev P128 := (⟨2, ![512, 128]⟩ : Shape).Idx → EReal

/-- The edge stage: row `i 0` of the output is `edgeRow` of rows `i 0` of the three edge arrays. -/
def edgeArr (pre : Bool) (hs xs xd : E128) (wa wb : M128) (bl : B128) (we : M128) (be : B128) : E128 := fun i =>
  edgeRow pre (fun l => hs (ix2 (i 0) l)) (fun l => xs (ix2 (i 0) l)) (fun l => xd (ix2 (i 0) l))
    (fun l k => wa (ix2 l k)) (fun l k => wb (ix2 l k)) (fun l k => we (ix2 l k))
    (fun k => bl (ix2 (0 : Fin 1) k)) (fun k => be (ix2 (0 : Fin 1) k)) (i 1)

/-- The node stage, row by row. -/
def nodeArr (pre post : Bool) (h a : N128) (w1 : M128) (b1 : B128) (w2 : M128) (b2 : B128) : N128 := fun i =>
  nodeRow pre post (fun l => h (ix2 (i 0) l)) (fun l => a (ix2 (i 0) l))
    (fun l k => w1 (ix2 l k)) (fun l k => w2 (ix2 l k))
    (fun k => b1 (ix2 (0 : Fin 1) k)) (fun k => b2 (ix2 (0 : Fin 1) k)) (i 1)

/-- The readout, row by row. -/
def readArr (p : P128) (w : (⟨2, ![128, 10]⟩ : Shape).Idx → EReal) (b : (⟨2, ![1, 10]⟩ : Shape).Idx → EReal) :
    (⟨2, ![512, 10]⟩ : Shape).Idx → EReal := fun i =>
  logSoftmaxRow (logit (fun k => p (ix2 (i 0) k)) (fun k c => w (ix2 k c)) (fun c => b (ix2 (0 : Fin 1) c))) (i 1)

/-! ## The one law: a sum over 256 indices is the sum of its two halves -/

theorem sum_split_256 (f : Fin 256 → EReal) :
    ∑ l : Fin 256, f l = (∑ l : Fin 128, f ⟨l.val, by omega⟩) + ∑ l : Fin 128, f ⟨128 + l.val, by omega⟩ := by
  have h := Fin.sum_univ_add (M := EReal) (a := 128) (b := 128) (fun l : Fin (128 + 128) => f ⟨l.val, l.isLt⟩)
  exact h

end Cert.Gnn

end
-- ==== Proof.EdgePay.lean ====
/-
  The edge kernels' stored value, read at one element. The body computes, on an 8000-row block,
  `relu (h + ((xs·Wa + xd·Wb + bl)·We + be))` with `h = xs` (first layer) or `relu xs` (second layer); the casts to the
  narrow float format are the identity on the extended reals, the two broadcast bias rows read their one row, and each
  product into a zero accumulator is a plain sum. So element `(p, q)` of the stored block is the message row of the
  specification at row `p` of the two edge blocks and feature `q`.
-/
import proofs.«135350_j47502338294214_1_alg».proof.Proof.Gen.KernelIdeal.Skeleton
import proofs.«135350_j47502338294214_1_alg».proof.Proof.MatmulAt
import proofs.«135350_j47502338294214_1_alg».proof.Proof.Spec
import Idealize.ShloMosaic.Lib.Pipeline.Value
import Idealize.ShloMosaic.Lib.ValueLayout

noncomputable section

namespace Cert.KernelIdeal.Pay

open Cert.KernelIdeal Cert.KernelIdeal.Gen Cert.KernelIdeal.At Cert.Gnn Idealize.ShloMosaic Idealize.ShloMosaic.ValueIdx

/-- First layer: the source row itself is added to the projected edge feature. -/
theorem k0_pay1_apply (v0 v2 : FVec Ideal S8000x128 .f32) (v6 v9 : FVec Ideal S128x128 .bf16) (v13 : FVec Ideal S1x128 .f32)
    (v18 : FVec Ideal S128x128 .bf16) (v21 : FVec Ideal S1x128 .f32) (p : Fin 8000) (q : Fin 128) :
    k0_pay1 (F := Ideal) v0 v2 v6 v9 v13 v18 v21 (ix2 p q)
      = edgeRow false (fun l => v0 (ix2 p l)) (fun l => v0 (ix2 p l)) (fun l => v2 (ix2 p l))
          (fun l k => v6 (ix2 l k)) (fun l k => v9 (ix2 l k)) (fun l k => v18 (ix2 l k))
          (fun k => v13 (ix2 (0 : Fin 1) k)) (fun k => v21 (ix2 (0 : Fin 1) k)) q := by
  unfold k0_pay1 edgeRow
  simp only [shapeCast_self, maximumf_apply, addf_apply, truncf_apply, broadcast_apply, matmul8000_apply,
    broadcastTo_1b_ab_apply, Bool.false_eq_true, if_false]
  rfl

/-- Second layer: the `relu` of the source row is added to the projected edge feature. -/
theorem k2_pay1_apply (v0 v2 : FVec Ideal S8000x128 .f32) (v6 v9 : FVec Ideal S128x128 .bf16) (v13 : FVec Ideal S1x128 .f32)
    (v18 : FVec Ideal S128x128 .bf16) (v21 : FVec Ideal S1x128 .f32) (p : Fin 8000) (q : Fin 128) :
    k2_pay1 (F := Ideal) v0 v2 v6 v9 v13 v18 v21 (ix2 p q)
      = edgeRow true (fun l => v0 (ix2 p l)) (fun l => v0 (ix2 p l)) (fun l => v2 (ix2 p l))
          (fun l k => v6 (ix2 l k)) (fun l k => v9 (ix2 l k)) (fun l k => v18 (ix2 l k))
          (fun k => v13 (ix2 (0 : Fin 1) k)) (fun k => v21 (ix2 (0 : Fin 1) k)) q := by
  unfold k2_pay1 edgeRow
  simp only [shapeCast_self, maximumf_apply, addf_apply, truncf_apply, broadcast_apply, matmul8000_apply,
    broadcastTo_1b_ab_apply, if_true]
  rfl

end Cert.KernelIdeal.Pay

end
-- ==== Proof.Region0.lean ====
/-
  Region 0 (an edge stage) as one whole-array function. The grid has 100 points; point `t` stages rows
  `8000·t … 8000·t + 7999` of the two edge arrays and of the output, and the whole of each weight matrix and bias row.
  What a point writes back is therefore the block of rows `8000·t …` of `edgeArr` of the seven input arrays as the region
  finds them; the hundred blocks tile the 800000 rows, so after the region the output array IS that function.
-/
import proofs.«135350_j47502338294214_1_alg».proof.Proof.Gen.KernelIdeal.Frame
import proofs.«135350_j47502338294214_1_alg».proof.Proof.EdgePay
import Idealize.ShloMosaic.Lib.Pipeline.Value

set_option maxRecDepth 16384

noncomputable section

namespace Cert.KernelIdeal.Reg0

open Cert.KernelIdeal Cert.KernelIdeal.Gen Cert.KernelIdeal.Pay Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the hundred points: the two edge windows and the output move with the point
    along the rows; the five parameter windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks a point stages, read at an element -/

/-- Row `p` of the source-row block at point `t` is row `8000·t + p` of the array. -/
theorem blk_xs (c : Dev nD) (t : Fin cfg0.N) (p : Fin 8000) (l : Fin 128) (r : Fin 800000) (hr : r.val = t.val * 8000 + p.val) :
    iblk0 V c 0 t (ix2 p l) = V c main_v14 (ix2 r l) := by
  show V c main_v14 (((cfg0.win 0).blk t).view.emb (ix2 p l)) = V c main_v14 (ix2 r l)
  obtain ⟨e0, e1, -⟩ := idx_facts t
  refine congrArg (V c main_v14) (funext fun a => Fin.ext ?_)
  match a with
  | ⟨0, _⟩ => show win0_0.index t (0 : Fin 2) * 8000 + 1 * p.val = r.val; omega
  | ⟨1, _⟩ => show win0_0.index t (1 : Fin 2) * 128 + 1 * l.val = l.val; omega

/-- Row `p` of the destination-row block at point `t` is row `8000·t + p` of the array. -/
theorem blk_xd (c : Dev nD) (t : Fin cfg0.N) (p : Fin 8000) (l : Fin 128) (r : Fin 800000) (hr : r.val = t.val * 8000 + p.val) :
    iblk0 V c 1 t (ix2 p l) = V c main_v21 (ix2 r l) := by
  show V c main_v21 (((cfg0.win 1).blk t).view.emb (ix2 p l)) = V c main_v21 (ix2 r l)
  obtain ⟨-, -, e2, e3, -⟩ := idx_facts t
  refine congrArg (V c main_v21) (funext fun a => Fin.ext ?_)
  match a with
  | ⟨0, _⟩ => show win0_1.index t (0 : Fin 2) * 8000 + 1 * p.val = r.val; omega
  | ⟨1, _⟩ => show win0_1.index t (1 : Fin 2) * 128 + 1 * l.val = l.val; omega

/-- A parameter window's block is its whole array at every point. -/
theorem blk_wa (c : Dev nD) (t : Fin cfg0.N) (l k : Fin 128) : iblk0 V c 2 t (ix2 l k) = V c main_v22 (ix2 l k) := by
  show V c main_v22 (((cfg0.win 2).blk t).view.emb (ix2 l k)) = V c main_v22 (ix2 l k)
  obtain ⟨-, -, -, -, -, -, e6, e7, -⟩ := idx_facts t
  refine congrArg (V c main_v22) (funext fun a => Fin.ext ?_)
  match a with
  | ⟨0, _⟩ => show win0_2.index t (0 : Fin 2) * 128 + 1 * l.val = l.val; omega
  | ⟨1, _⟩ => show win0_2.index t (1 : Fin 2) * 128 + 1 * k.val = k.val; omega

theorem blk_wb (c : Dev nD) (t : Fin cfg0.N) (l k : Fin 128) : iblk0 V c 3 t (ix2 l k) = V c main_v23 (ix2 l k) := by
  show V c main_v23 (((cfg0.win 3).blk t).view.emb (ix2 l k)) = V c main_v23 (ix2 l k)
  obtain ⟨-, -, -, -, -, -, -, -, e8, e9, -⟩ := idx_facts t
  refine congrArg (V c main_v23) (funext fun a => Fin.ext ?_)
  match a with
  | ⟨0, _⟩ => show win0_3.index t (0 : Fin 2) * 128 + 1 * l.val = l.val; omega
  | ⟨1, _⟩ => show win0_3.index t (1 : Fin 2) * 128 + 1 * k.val = k.val; omega

theorem blk_bl (c : Dev nD) (t : Fin cfg0.N) (k : Fin 128) : iblk0 V c 4 t (ix2 (0 : Fin 1) k) = V c main_v25 (ix2 (0 : Fin 1) k) := by
  show V c main_v25 (((cfg0.win 4).blk t).view.emb (ix2 (0 : Fin 1) k)) = V c main_v25 (ix2 (0 : Fin 1) k)
  obtain ⟨-, -, -, -, -, -, -, -, -, -, e10, e11, -⟩ := idx_facts t
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

theorem blk_we (c : Dev nD) (t : Fin cfg0.N) (l k : Fin 128) : iblk0 V c 5 t (ix2 l k) = V c main_v24 (ix2 l k) := by
  show V c main_v24 (((cfg0.win 5).blk t).view.emb (ix2 l k)) = V c main_v24 (ix2 l k)
  obtain ⟨-, -, -, -, -, -, -, -, -, -, -, -, e12, e13, -⟩ := idx_facts t
  refine congrArg (V c main_v24) (funext fun a => Fin.ext ?_)
  match a with
  | ⟨0, _⟩ => show win0_5.index t (0 : Fin 2) * 128 + 1 * l.val = l.val; omega
  | ⟨1, _⟩ => show win0_5.index t (1 : Fin 2) * 128 + 1 * k.val = k.val; omega

theorem blk_be (c : Dev nD) (t : Fin cfg0.N) (k : Fin 128) : iblk0 V c 6 t (ix2 (0 : Fin 1) k) = V c main_v26 (ix2 (0 : Fin 1) k) := by
  show V c main_v26 (((cfg0.win 6).blk t).view.emb (ix2 (0 : Fin 1) k)) = V c main_v26 (ix2 (0 : Fin 1) k)
  obtain ⟨-, -, -, -, -, -, -, -, -, -, -, -, -, -, e14, e15⟩ := idx_facts t
  refine congrArg (V c main_v26) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

/-! ## What a point writes back -/

/-- The whole-array function the region computes, of its seven input arrays as the region finds them. -/
abbrev G (c : Dev nD) : E128 :=
  edgeArr false (V c main_v14) (V c main_v14) (V c main_v21) (V c main_v22) (V c main_v23) (V c main_v25) (V c main_v24) (V c main_v26)

/-- Point `t` writes back block `t` of `G`. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S8000x128) hz, View.ld_unit_zero (S := S128x128) hz, View.ld_unit_zero (S := S1x128) hz]
  funext (y : S8000x128.Idx)
  obtain ⟨p, q, rfl⟩ : ∃ (p : Fin 8000) (q : Fin 128), y = ix2 p q := ⟨y 0, y 1, eq_ix2 y⟩
  obtain ⟨-, -, -, -, e4, e5, -⟩ := idx_facts t
  have ht : t.val < 100 := by have := t.isLt; have hN : cfg0.N = 100 := N_0; omega
  have hemb : ((cfg0.win 7).blk t).view.emb (ix2 p q) = ix2 (⟨t.val * 8000 + p.val, by omega⟩ : Fin 800000) q := by
    funext a; apply Fin.ext
    match a with
    | ⟨0, _⟩ => show win0_7.index t (0 : Fin 2) * 8000 + 1 * p.val = t.val * 8000 + p.val; omega
    | ⟨1, _⟩ => show win0_7.index t (1 : Fin 2) * 128 + 1 * q.val = q.val; omega
  show k0_pay1 (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  rw [hemb]
  refine (k0_pay1_apply (iblk0 V c 0 t) (iblk0 V c 1 t) (iblk0 V c 2 t) (iblk0 V c 3 t) (iblk0 V c 4 t) (iblk0 V c 5 t) (iblk0 V c 6 t) p q).trans ?_
  show _ = edgeRow false _ _ _ _ _ _ _ _ q
  simp only [blk_xs V c t p _ ⟨t.val * 8000 + p.val, by omega⟩ rfl, blk_xd V c t p _ ⟨t.val * 8000 + p.val, by omega⟩ rfl,
    blk_wa V c t, blk_wb V c t, blk_bl V c t, blk_we V c t, blk_be V c t]

/-! ## The cover, and the array after the region -/

/-- An index of the output array is in point `t`'s block iff each coordinate is in the block's range on its axis. -/
theorem mem_blk (t : Fin cfg0.N) (i : S800000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v27).slice (win0_7.rect t)).set ↔ _
  rw [View.set_slice_whole, Rect.mem_set_unit]
  exact Iff.rfl

/-- Row `r` is in the block of point `r / 8000`. -/
theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 100 := N_0
  have hlt : (i 0).val / 8000 < cfg0.N := by rw [hN]; omega
  obtain ⟨-, -, -, -, e4, e5, -⟩ := idx_facts (⟨(i 0).val / 8000, hlt⟩ : Fin cfg0.N)
  refine ⟨⟨(i 0).val / 8000, hlt⟩, flush0_7 _, ?_⟩
  rw [mem_blk]
  intro a
  match a with
  | ⟨0, _⟩ =>
    show win0_7.index ⟨(i 0).val / 8000, hlt⟩ (0 : Fin 2) * 8000 ≤ (i 0).val ∧ (i 0).val < win0_7.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win0_7.index ⟨(i 0).val / 8000, hlt⟩ (1 : Fin 2) * 128 ≤ (i 1).val ∧ (i 1).val < win0_7.index ⟨(i 0).val / 8000, hlt⟩ (1 : Fin 2) * 128 + 128
    rw [e5]; omega

/-- After the region the output array is `G`. -/
theorem final (c : Dev nD) : (dat0 V c).arrAt 7 cfg0.N = G V c :=
  (dat0 V c).arrAt_eq_of_cover 7 (G V c) (fun t _ => flushed_eq V c t) cover

end Cert.KernelIdeal.Reg0

end
-- ==== Proof.NodePay.lean ====
/-
  The node kernels' stored value, read at one element. On a 5000-row block the body computes the two-layer perceptron
  `relu ((h' + a)·W1 + b1)·W2 + b2` with `h' = h` (first layer) or `relu h` (second layer, which also ends in a `relu`).
  Element `(p, q)` of the stored block is the node row of the specification at row `p` of the two node blocks.
-/
import proofs.«135350_j47502338294214_1_alg».proof.Proof.Gen.KernelIdeal.Skeleton
import proofs.«135350_j47502338294214_1_alg».proof.Proof.MatmulAt
import proofs.«135350_j47502338294214_1_alg».proof.Proof.Spec
import Idealize.ShloMosaic.Lib.Pipeline.Value
import Idealize.ShloMosaic.Lib.ValueLayout

noncomputable section

namespace Cert.KernelIdeal.Pay

open Cert.KernelIdeal Cert.KernelIdeal.Gen Cert.KernelIdeal.At Cert.Gnn Idealize.ShloMosaic Idealize.ShloMosaic.ValueIdx

/-- First layer: no `relu` on the way in, none on the way out. -/
theorem k1_pay1_apply (v0 v1 : FVec Ideal S5000x128 .f32) (v5 : FVec Ideal S128x128 .bf16) (v8 : FVec Ideal S1x128 .f32)
    (v15 : FVec Ideal S128x128 .bf16) (v18 : FVec Ideal S1x128 .f32) (p : Fin 5000) (q : Fin 128) :
    k1_pay1 (F := Ideal) v0 v1 v5 v8 v15 v18 (ix2 p q)
      = nodeRow false false (fun l => v0 (ix2 p l)) (fun l => v1 (ix2 p l))
          (fun l k => v5 (ix2 l k)) (fun l k => v15 (ix2 l k))
          (fun k => v8 (ix2 (0 : Fin 1) k)) (fun k => v18 (ix2 (0 : Fin 1) k)) q := by
  unfold k1_pay1 nodeRow
  simp only [shapeCast_self, maximumf_apply, addf_apply, truncf_apply, broadcast_apply, matmul5000_apply,
    broadcastTo_1b_ab_apply, Bool.false_eq_true, if_false]
  rfl

/-- Second layer: `relu` on the way in and on the way out. -/
theorem k3_pay1_apply (v0 v4 : FVec Ideal S5000x128 .f32) (v8 : FVec Ideal S128x128 .bf16) (v11 : FVec Ideal S1x128 .f32)
    (v18 : FVec Ideal S128x128 .bf16) (v21 : FVec Ideal S1x128 .f32) (p : Fin 5000) (q : Fin 128) :
    k3_pay1 (F := Ideal) v0 v4 v8 v11 v18 v21 (ix2 p q)
      = nodeRow true true (fun l => v0 (ix2 p l)) (fun l => v4 (ix2 p l))
          (fun l k => v8 (ix2 l k)) (fun l k => v18 (ix2 l k))
          (fun k => v11 (ix2 (0 : Fin 1) k)) (fun k => v21 (ix2 (0 : Fin 1) k)) q := by
  unfold k3_pay1 nodeRow
  simp only [shapeCast_self, maximumf_apply, addf_apply, truncf_apply, broadcast_apply, matmul5000_apply,
    broadcastTo_1b_ab_apply, if_true]
  rfl

end Cert.KernelIdeal.Pay

end
-- ==== Proof.Region1.lean ====
/-
  Region 1 (a node stage) as one whole-array function. The grid has 10 points; point `t` stages rows
  `5000·t … 5000·t + 4999` of the node array, of the aggregated messages and of the output, and the whole of each weight
  matrix and bias row. What a point writes back is the block of rows `5000·t …` of `nodeArr` of the six input arrays as the
  region finds them; the ten blocks tile the 50000 rows, so after the region the output array IS that function.
-/
import proofs.«135350_j47502338294214_1_alg».proof.Proof.Gen.KernelIdeal.Frame
import proofs.«135350_j47502338294214_1_alg».proof.Proof.NodePay
import Idealize.ShloMosaic.Lib.Pipeline.Value

set_option maxRecDepth 16384

noncomputable section

namespace Cert.KernelIdeal.Reg1

open Cert.KernelIdeal Cert.KernelIdeal.Gen Cert.KernelIdeal.Pay Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the two node windows and the output move with the point along
    the rows; the four parameter windows stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The blocks a point stages, read at an element -/

/-- Row `p` of the node block at point `t` is row `5000·t + p` of the array. -/
theorem blk_h (c : Dev nD) (t : Fin cfg1.N) (p : Fin 5000) (l : Fin 128) (r : Fin 50000) (hr : r.val = t.val * 5000 + p.val) :
    iblk1 V c 0 t (ix2 p l) = V c main_arg0 (ix2 r l) := by
  show V c main_arg0 (((cfg1.win 0).blk t).view.emb (ix2 p l)) = V c main_arg0 (ix2 r l)
  obtain ⟨e0, e1, -⟩ := idx_facts t
  refine congrArg (V c main_arg0) (funext fun a => Fin.ext ?_)
  match a with
  | ⟨0, _⟩ => show win1_0.index t (0 : Fin 2) * 5000 + 1 * p.val = r.val; omega
  | ⟨1, _⟩ => show win1_0.index t (1 : Fin 2) * 128 + 1 * l.val = l.val; omega

/-- Row `p` of the aggregated-messages block at point `t` is row `5000·t + p` of the array. -/
theorem blk_a (c : Dev nD) (t : Fin cfg1.N) (p : Fin 5000) (l : Fin 128) (r : Fin 50000) (hr : r.val = t.val * 5000 + p.val) :
    iblk1 V c 1 t (ix2 p l) = V c main_v30 (ix2 r l) := by
  show V c main_v30 (((cfg1.win 1).blk t).view.emb (ix2 p l)) = V c main_v30 (ix2 r l)
  obtain ⟨-, -, e2, e3, -⟩ := idx_facts t
  refine congrArg (V c main_v30) (funext fun a => Fin.ext ?_)
  match a with
  | ⟨0, _⟩ => show win1_1.index t (0 : Fin 2) * 5000 + 1 * p.val = r.val; omega
  | ⟨1, _⟩ => show win1_1.index t (1 : Fin 2) * 128 + 1 * l.val = l.val; omega

/-- A parameter window's block is its whole array at every point. -/
theorem blk_w1 (c : Dev nD) (t : Fin cfg1.N) (l k : Fin 128) : iblk1 V c 2 t (ix2 l k) = V c main_v31 (ix2 l k) := by
  show V c main_v31 (((cfg1.win 2).blk t).view.emb (ix2 l k)) = V c main_v31 (ix2 l k)
  obtain ⟨-, -, -, -, -, -, e6, e7, -⟩ := idx_facts t
  refine congrArg (V c main_v31) (funext fun a => Fin.ext ?_)
  match a with
  | ⟨0, _⟩ => show win1_2.index t (0 : Fin 2) * 128 + 1 * l.val = l.val; omega
  | ⟨1, _⟩ => show win1_2.index t (1 : Fin 2) * 128 + 1 * k.val = k.val; omega

theorem blk_b1 (c : Dev nD) (t : Fin cfg1.N) (k : Fin 128) : iblk1 V c 3 t (ix2 (0 : Fin 1) k) = V c main_v33 (ix2 (0 : Fin 1) k) := by
  show V c main_v33 (((cfg1.win 3).blk t).view.emb (ix2 (0 : Fin 1) k)) = V c main_v33 (ix2 (0 : Fin 1) k)
  obtain ⟨-, -, -, -, -, -, -, -, e8, e9, -⟩ := idx_facts t
  refine congrArg (V c main_v33) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

theorem blk_w2 (c : Dev nD) (t : Fin cfg1.N) (l k : Fin 128) : iblk1 V c 4 t (ix2 l k) = V c main_v32 (ix2 l k) := by
  show V c main_v32 (((cfg1.win 4).blk t).view.emb (ix2 l k)) = V c main_v32 (ix2 l k)
  obtain ⟨-, -, -, -, -, -, -, -, -, -, e10, e11, -⟩ := idx_facts t
  refine congrArg (V c main_v32) (funext fun a => Fin.ext ?_)
  match a with
  | ⟨0, _⟩ => show win1_4.index t (0 : Fin 2) * 128 + 1 * l.val = l.val; omega
  | ⟨1, _⟩ => show win1_4.index t (1 : Fin 2) * 128 + 1 * k.val = k.val; omega

theorem blk_b2 (c : Dev nD) (t : Fin cfg1.N) (k : Fin 128) : iblk1 V c 5 t (ix2 (0 : Fin 1) k) = V c main_v34 (ix2 (0 : Fin 1) k) := by
  show V c main_v34 (((cfg1.win 5).blk t).view.emb (ix2 (0 : Fin 1) k)) = V c main_v34 (ix2 (0 : Fin 1) k)
  obtain ⟨-, -, -, -, -, -, -, -, -, -, -, -, e12, e13⟩ := idx_facts t
  refine congrArg (V c main_v34) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-! ## What a point writes back -/

/-- The whole-array function the region computes, of its six input arrays as the region finds them. -/
abbrev G (c : Dev nD) : N128 :=
  nodeArr false false (V c main_arg0) (V c main_v30) (V c main_v31) (V c main_v33) (V c main_v32) (V c main_v34)

/-- Point `t` writes back block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext (y : S5000x128.Idx)
  obtain ⟨p, q, rfl⟩ : ∃ (p : Fin 5000) (q : Fin 128), y = ix2 p q := ⟨y 0, y 1, eq_ix2 y⟩
  obtain ⟨-, -, -, -, e4, e5, -⟩ := idx_facts t
  have ht : t.val < 10 := by have := t.isLt; have hN : cfg1.N = 10 := N_1; omega
  have hemb : ((cfg1.win 6).blk t).view.emb (ix2 p q) = ix2 (⟨t.val * 5000 + p.val, by omega⟩ : Fin 50000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 p q)
    = G V c (((cfg1.win 6).blk t).view.emb (ix2 p q))
  rw [hemb]
  refine (k1_pay1_apply (iblk1 V c 0 t) (iblk1 V c 1 t) (iblk1 V c 2 t) (iblk1 V c 3 t) (iblk1 V c 4 t) (iblk1 V c 5 t) p q).trans ?_
  show _ = nodeRow false false _ _ _ _ _ _ q
  simp only [blk_h V c t p _ ⟨t.val * 5000 + p.val, by omega⟩ rfl, blk_a V c t p _ ⟨t.val * 5000 + p.val, by omega⟩ rfl,
    blk_w1 V c t, blk_b1 V c t, blk_w2 V c t, blk_b2 V c t]

/-! ## The cover, and the array after the region -/

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- Row `r` is in the block of point `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, e4, e5, -⟩ := idx_facts (⟨(i 0).val / 5000, hlt⟩ : Fin cfg1.N)
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e5]; omega

/-- After the region the output array is `G`. -/
theorem final (c : Dev nD) : (dat1 V c).arrAt 6 cfg1.N = G V c :=
  (dat1 V c).arrAt_eq_of_cover 6 (G V c) (fun t _ => flushed_eq V c t) cover

end Cert.KernelIdeal.Reg1

end
-- ==== Proof.Region2.lean ====
/-
  Region 2 (an edge stage) as one whole-array function. The grid has 100 points; point `t` stages rows
  `8000·t … 8000·t + 7999` of the two edge arrays and of the output, and the whole of each weight matrix and bias row.
  What a point writes back is therefore the block of rows `8000·t …` of `edgeArr` of the seven input arrays as the region
  finds them; the hundred blocks tile the 800000 rows, so after the region the output array IS that function.
-/
import proofs.«135350_j47502338294214_1_alg».proof.Proof.Gen.KernelIdeal.Frame
import proofs.«135350_j47502338294214_1_alg».proof.Proof.EdgePay
import Idealize.ShloMosaic.Lib.Pipeline.Value

set_option maxRecDepth 16384

noncomputable section

namespace Cert.KernelIdeal.Reg2

open Cert.KernelIdeal Cert.KernelIdeal.Gen Cert.KernelIdeal.Pay Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the hundred points: the two edge windows and the output move with the point
    along the rows; the five parameter windows stay at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ## The blocks a point stages, read at an element -/

/-- Row `p` of the source-row block at point `t` is row `8000·t + p` of the array. -/
theorem blk_xs (c : Dev nD) (t : Fin cfg2.N) (p : Fin 8000) (l : Fin 128) (r : Fin 800000) (hr : r.val = t.val * 8000 + p.val) :
    iblk2 V c 0 t (ix2 p l) = V c main_v42 (ix2 r l) := by
  show V c main_v42 (((cfg2.win 0).blk t).view.emb (ix2 p l)) = V c main_v42 (ix2 r l)
  obtain ⟨e0, e1, -⟩ := idx_facts t
  refine congrArg (V c main_v42) (funext fun a => Fin.ext ?_)
  match a with
  | ⟨0, _⟩ => show win2_0.index t (0 : Fin 2) * 8000 + 1 * p.val = r.val; omega
  | ⟨1, _⟩ => show win2_0.index t (1 : Fin 2) * 128 + 1 * l.val = l.val; omega

/-- Row `p` of the destination-row block at point `t` is row `8000·t + p` of the array. -/
theorem blk_xd (c : Dev nD) (t : Fin cfg2.N) (p : Fin 8000) (l : Fin 128) (r : Fin 800000) (hr : r.val = t.val * 8000 + p.val) :
    iblk2 V c 1 t (ix2 p l) = V c main_v49 (ix2 r l) := by
  show V c main_v49 (((cfg2.win 1).blk t).view.emb (ix2 p l)) = V c main_v49 (ix2 r l)
  obtain ⟨-, -, e2, e3, -⟩ := idx_facts t
  refine congrArg (V c main_v49) (funext fun a => Fin.ext ?_)
  match a with
  | ⟨0, _⟩ => show win2_1.index t (0 : Fin 2) * 8000 + 1 * p.val = r.val; omega
  | ⟨1, _⟩ => show win2_1.index t (1 : Fin 2) * 128 + 1 * l.val = l.val; omega

/-- A parameter window's block is its whole array at every point. -/
theorem blk_wa (c : Dev nD) (t : Fin cfg2.N) (l k : Fin 128) : iblk2 V c 2 t (ix2 l k) = V c main_v50 (ix2 l k) := by
  show V c main_v50 (((cfg2.win 2).blk t).view.emb (ix2 l k)) = V c main_v50 (ix2 l k)
  obtain ⟨-, -, -, -, -, -, e6, e7, -⟩ := idx_facts t
  refine congrArg (V c main_v50) (funext fun a => Fin.ext ?_)
  match a with
  | ⟨0, _⟩ => show win2_2.index t (0 : Fin 2) * 128 + 1 * l.val = l.val; omega
  | ⟨1, _⟩ => show win2_2.index t (1 : Fin 2) * 128 + 1 * k.val = k.val; omega

theorem blk_wb (c : Dev nD) (t : Fin cfg2.N) (l k : Fin 128) : iblk2 V c 3 t (ix2 l k) = V c main_v51 (ix2 l k) := by
  show V c main_v51 (((cfg2.win 3).blk t).view.emb (ix2 l k)) = V c main_v51 (ix2 l k)
  obtain ⟨-, -, -, -, -, -, -, -, e8, e9, -⟩ := idx_facts t
  refine congrArg (V c main_v51) (funext fun a => Fin.ext ?_)
  match a with
  | ⟨0, _⟩ => show win2_3.index t (0 : Fin 2) * 128 + 1 * l.val = l.val; omega
  | ⟨1, _⟩ => show win2_3.index t (1 : Fin 2) * 128 + 1 * k.val = k.val; omega

theorem blk_bl (c : Dev nD) (t : Fin cfg2.N) (k : Fin 128) : iblk2 V c 4 t (ix2 (0 : Fin 1) k) = V c main_v53 (ix2 (0 : Fin 1) k) := by
  show V c main_v53 (((cfg2.win 4).blk t).view.emb (ix2 (0 : Fin 1) k)) = V c main_v53 (ix2 (0 : Fin 1) k)
  obtain ⟨-, -, -, -, -, -, -, -, -, -, e10, e11, -⟩ := idx_facts t
  refine congrArg (V c main_v53) (funext fun a => Fin.ext ?_)
  match a with
  | ⟨0, _⟩ => show win2_4.index t (0 : Fin 2) * 1 + 1 * 0 = 0; omega
  | ⟨1, _⟩ => show win2_4.index t (1 : Fin 2) * 128 + 1 * k.val = k.val; omega

theorem blk_we (c : Dev nD) (t : Fin cfg2.N) (l k : Fin 128) : iblk2 V c 5 t (ix2 l k) = V c main_v52 (ix2 l k) := by
  show V c main_v52 (((cfg2.win 5).blk t).view.emb (ix2 l k)) = V c main_v52 (ix2 l k)
  obtain ⟨-, -, -, -, -, -, -, -, -, -, -, -, e12, e13, -⟩ := idx_facts t
  refine congrArg (V c main_v52) (funext fun a => Fin.ext ?_)
  match a with
  | ⟨0, _⟩ => show win2_5.index t (0 : Fin 2) * 128 + 1 * l.val = l.val; omega
  | ⟨1, _⟩ => show win2_5.index t (1 : Fin 2) * 128 + 1 * k.val = k.val; omega

theorem blk_be (c : Dev nD) (t : Fin cfg2.N) (k : Fin 128) : iblk2 V c 6 t (ix2 (0 : Fin 1) k) = V c main_v54 (ix2 (0 : Fin 1) k) := by
  show V c main_v54 (((cfg2.win 6).blk t).view.emb (ix2 (0 : Fin 1) k)) = V c main_v54 (ix2 (0 : Fin 1) k)
  obtain ⟨-, -, -, -, -, -, -, -, -, -, -, -, -, -, e14, e15⟩ := idx_facts t
  refine congrArg (V c main_v54) (funext fun a => Fin.ext ?_)
  match a with
  | ⟨0, _⟩ => show win2_6.index t (0 : Fin 2) * 1 + 1 * 0 = 0; omega
  | ⟨1, _⟩ => show win2_6.index t (1 : Fin 2) * 128 + 1 * k.val = k.val; omega

/-! ## What a point writes back -/

/-- The whole-array function the region computes, of its seven input arrays as the region finds them. -/
abbrev G (c : Dev nD) : E128 :=
  edgeArr true (V c main_v42) (V c main_v42) (V c main_v49) (V c main_v50) (V c main_v51) (V c main_v53) (V c main_v52) (V c main_v54)

/-- Point `t` writes back block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S8000x128) hz, View.ld_unit_zero (S := S128x128) hz, View.ld_unit_zero (S := S1x128) hz]
  funext (y : S8000x128.Idx)
  obtain ⟨p, q, rfl⟩ : ∃ (p : Fin 8000) (q : Fin 128), y = ix2 p q := ⟨y 0, y 1, eq_ix2 y⟩
  obtain ⟨-, -, -, -, e4, e5, -⟩ := idx_facts t
  have ht : t.val < 100 := by have := t.isLt; have hN : cfg2.N = 100 := N_2; omega
  have hemb : ((cfg2.win 7).blk t).view.emb (ix2 p q) = ix2 (⟨t.val * 8000 + p.val, by omega⟩ : Fin 800000) q := by
    funext a; apply Fin.ext
    match a with
    | ⟨0, _⟩ => show win2_7.index t (0 : Fin 2) * 8000 + 1 * p.val = t.val * 8000 + p.val; omega
    | ⟨1, _⟩ => show win2_7.index t (1 : Fin 2) * 128 + 1 * q.val = q.val; omega
  show k2_pay1 (iblk2 V c 0 t) (iblk2 V c 1 t) (iblk2 V c 2 t) (iblk2 V c 3 t) (iblk2 V c 4 t) (iblk2 V c 5 t) (iblk2 V c 6 t) (ix2 p q)
    = G V c (((cfg2.win 7).blk t).view.emb (ix2 p q))
  rw [hemb]
  refine (k2_pay1_apply (iblk2 V c 0 t) (iblk2 V c 1 t) (iblk2 V c 2 t) (iblk2 V c 3 t) (iblk2 V c 4 t) (iblk2 V c 5 t) (iblk2 V c 6 t) p q).trans ?_
  show _ = edgeRow true _ _ _ _ _ _ _ _ q
  simp only [blk_xs V c t p _ ⟨t.val * 8000 + p.val, by omega⟩ rfl, blk_xd V c t p _ ⟨t.val * 8000 + p.val, by omega⟩ rfl,
    blk_wa V c t, blk_wb V c t, blk_bl V c t, blk_we V c t, blk_be V c t]

/-! ## The cover, and the array after the region -/

/-- An index of the output array is in point `t`'s block iff each coordinate is in the block's range on its axis. -/
theorem mem_blk (t : Fin cfg2.N) (i : S800000x128.Idx) :
    i ∈ ((cfg2.win 7).blk t).view.set ↔ ∀ a : Fin 2, win2_7.index t a * S8000x128.size a ≤ (i a).val ∧ (i a).val < win2_7.index t a * S8000x128.size a + S8000x128.size a := by
  show i ∈ ((View.whole main_v55).slice (win2_7.rect t)).set ↔ _
  rw [View.set_slice_whole, Rect.mem_set_unit]
  exact Iff.rfl

/-- Row `r` is in the block of point `r / 8000`. -/
theorem cover (i : S800000x128.Idx) : ∃ t : Fin cfg2.N, (cfg2.win 7).flush t = true ∧ i ∈ ((cfg2.win 7).blk t).view.set := by
  have hi0 : (i 0).val < 800000 := (i 0).isLt
  have hi1 : (i 1).val < 128 := (i 1).isLt
  have hN : cfg2.N = 100 := N_2
  have hlt : (i 0).val / 8000 < cfg2.N := by rw [hN]; omega
  obtain ⟨-, -, -, -, e4, e5, -⟩ := idx_facts (⟨(i 0).val / 8000, hlt⟩ : Fin cfg2.N)
  refine ⟨⟨(i 0).val / 8000, hlt⟩, flush2_7 _, ?_⟩
  rw [mem_blk]
  intro a
  match a with
  | ⟨0, _⟩ =>
    show win2_7.index ⟨(i 0).val / 8000, hlt⟩ (0 : Fin 2) * 8000 ≤ (i 0).val ∧ (i 0).val < win2_7.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win2_7.index ⟨(i 0).val / 8000, hlt⟩ (1 : Fin 2) * 128 ≤ (i 1).val ∧ (i 1).val < win2_7.index ⟨(i 0).val / 8000, hlt⟩ (1 : Fin 2) * 128 + 128
    rw [e5]; omega

/-- After the region the output array is `G`. -/
theorem final (c : Dev nD) : (dat2 V c).arrAt 7 cfg2.N = G V c :=
  (dat2 V c).arrAt_eq_of_cover 7 (G V c) (fun t _ => flushed_eq V c t) cover

end Cert.KernelIdeal.Reg2

end
-- ==== Proof.Region3.lean ====
/-
  Region 3 (a node stage) as one whole-array function. The grid has 10 points; point `t` stages rows
  `5000·t … 5000·t + 4999` of the node array, of the aggregated messages and of the output, and the whole of each weight
  matrix and bias row. What a point writes back is the block of rows `5000·t …` of `nodeArr` of the six input arrays as the
  region finds them; the ten blocks tile the 50000 rows, so after the region the output array IS that function.
-/
import proofs.«135350_j47502338294214_1_alg».proof.Proof.Gen.KernelIdeal.Frame
import proofs.«135350_j47502338294214_1_alg».proof.Proof.NodePay
import Idealize.ShloMosaic.Lib.Pipeline.Value

set_option maxRecDepth 16384

noncomputable section

namespace Cert.KernelIdeal.Reg3

open Cert.KernelIdeal Cert.KernelIdeal.Gen Cert.KernelIdeal.Pay Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the two node windows and the output move with the point along
    the rows; the four parameter windows stay at block zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-! ## The blocks a point stages, read at an element -/

/-- Row `p` of the node block at point `t` is row `5000·t + p` of the array. -/
theorem blk_h (c : Dev nD) (t : Fin cfg3.N) (p : Fin 5000) (l : Fin 128) (r : Fin 50000) (hr : r.val = t.val * 5000 + p.val) :
    iblk3 V c 0 t (ix2 p l) = V c main_v35 (ix2 r l) := by
  show V c main_v35 (((cfg3.win 0).blk t).view.emb (ix2 p l)) = V c main_v35 (ix2 r l)
  obtain ⟨e0, e1, -⟩ := idx_facts t
  refine congrArg (V c main_v35) (funext fun a => Fin.ext ?_)
  match a with
  | ⟨0, _⟩ => show win3_0.index t (0 : Fin 2) * 5000 + 1 * p.val = r.val; omega
  | ⟨1, _⟩ => show win3_0.index t (1 : Fin 2) * 128 + 1 * l.val = l.val; omega

/-- Row `p` of the aggregated-messages block at point `t` is row `5000·t + p` of the array. -/
theorem blk_a (c : Dev nD) (t : Fin cfg3.N) (p : Fin 5000) (l : Fin 128) (r : Fin 50000) (hr : r.val = t.val * 5000 + p.val) :
    iblk3 V c 1 t (ix2 p l) = V c main_v58 (ix2 r l) := by
  show V c main_v58 (((cfg3.win 1).blk t).view.emb (ix2 p l)) = V c main_v58 (ix2 r l)
  obtain ⟨-, -, e2, e3, -⟩ := idx_facts t
  refine congrArg (V c main_v58) (funext fun a => Fin.ext ?_)
  match a with
  | ⟨0, _⟩ => show win3_1.index t (0 : Fin 2) * 5000 + 1 * p.val = r.val; omega
  | ⟨1, _⟩ => show win3_1.index t (1 : Fin 2) * 128 + 1 * l.val = l.val; omega

/-- A parameter window's block is its whole array at every point. -/
theorem blk_w1 (c : Dev nD) (t : Fin cfg3.N) (l k : Fin 128) : iblk3 V c 2 t (ix2 l k) = V c main_v59 (ix2 l k) := by
  show V c main_v59 (((cfg3.win 2).blk t).view.emb (ix2 l k)) = V c main_v59 (ix2 l k)
  obtain ⟨-, -, -, -, -, -, e6, e7, -⟩ := idx_facts t
  refine congrArg (V c main_v59) (funext fun a => Fin.ext ?_)
  match a with
  | ⟨0, _⟩ => show win3_2.index t (0 : Fin 2) * 128 + 1 * l.val = l.val; omega
  | ⟨1, _⟩ => show win3_2.index t (1 : Fin 2) * 128 + 1 * k.val = k.val; omega

theorem blk_b1 (c : Dev nD) (t : Fin cfg3.N) (k : Fin 128) : iblk3 V c 3 t (ix2 (0 : Fin 1) k) = V c main_v61 (ix2 (0 : Fin 1) k) := by
  show V c main_v61 (((cfg3.win 3).blk t).view.emb (ix2 (0 : Fin 1) k)) = V c main_v61 (ix2 (0 : Fin 1) k)
  obtain ⟨-, -, -, -, -, -, -, -, e8, e9, -⟩ := idx_facts t
  refine congrArg (V c main_v61) (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

theorem blk_w2 (c : Dev nD) (t : Fin cfg3.N) (l k : Fin 128) : iblk3 V c 4 t (ix2 l k) = V c main_v60 (ix2 l k) := by
  show V c main_v60 (((cfg3.win 4).blk t).view.emb (ix2 l k)) = V c main_v60 (ix2 l k)
  obtain ⟨-, -, -, -, -, -, -, -, -, -, e10, e11, -⟩ := idx_facts t
  refine congrArg (V c main_v60) (funext fun a => Fin.ext ?_)
  match a with
  | ⟨0, _⟩ => show win3_4.index t (0 : Fin 2) * 128 + 1 * l.val = l.val; omega
  | ⟨1, _⟩ => show win3_4.index t (1 : Fin 2) * 128 + 1 * k.val = k.val; omega

theorem blk_b2 (c : Dev nD) (t : Fin cfg3.N) (k : Fin 128) : iblk3 V c 5 t (ix2 (0 : Fin 1) k) = V c main_v62 (ix2 (0 : Fin 1) k) := by
  show V c main_v62 (((cfg3.win 5).blk t).view.emb (ix2 (0 : Fin 1) k)) = V c main_v62 (ix2 (0 : Fin 1) k)
  obtain ⟨-, -, -, -, -, -, -, -, -, -, -, -, e12, e13⟩ := idx_facts t
  refine congrArg (V c main_v62) (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

/-! ## What a point writes back -/

/-- The whole-array function the region computes, of its six input arrays as the region finds them. -/
abbrev G (c : Dev nD) : N128 :=
  nodeArr true true (V c main_v35) (V c main_v58) (V c main_v59) (V c main_v61) (V c main_v60) (V c main_v62)

/-- Point `t` writes back block `t` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  funext (y : S5000x128.Idx)
  obtain ⟨p, q, rfl⟩ : ∃ (p : Fin 5000) (q : Fin 128), y = ix2 p q := ⟨y 0, y 1, eq_ix2 y⟩
  obtain ⟨-, -, -, -, e4, e5, -⟩ := idx_facts t
  have ht : t.val < 10 := by have := t.isLt; have hN : cfg3.N = 10 := N_3; omega
  have hemb : ((cfg3.win 6).blk t).view.emb (ix2 p q) = ix2 (⟨t.val * 5000 + p.val, by omega⟩ : Fin 50000) q := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * q.val = q.val; omega
  show k3_pay1 (iblk3 V c 0 t) (iblk3 V c 1 t) (iblk3 V c 2 t) (iblk3 V c 3 t) (iblk3 V c 4 t) (iblk3 V c 5 t) (ix2 p q)
    = G V c (((cfg3.win 6).blk t).view.emb (ix2 p q))
  rw [hemb]
  refine (k3_pay1_apply (iblk3 V c 0 t) (iblk3 V c 1 t) (iblk3 V c 2 t) (iblk3 V c 3 t) (iblk3 V c 4 t) (iblk3 V c 5 t) p q).trans ?_
  show _ = nodeRow true true _ _ _ _ _ _ q
  simp only [blk_h V c t p _ ⟨t.val * 5000 + p.val, by omega⟩ rfl, blk_a V c t p _ ⟨t.val * 5000 + p.val, by omega⟩ rfl,
    blk_w1 V c t, blk_b1 V c t, blk_w2 V c t, blk_b2 V c t]

/-! ## The cover, and the array after the region -/

/-- An index of the output array is in point `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v63).slice (win3_6.rect t)).set ↔ _
  rw [View.set_slice_whole, Rect.mem_set_unit]
  exact Iff.rfl

/-- Row `r` is in the block of point `r / 5000`. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨-, -, -, -, e4, e5, -⟩ := idx_facts (⟨(i 0).val / 5000, hlt⟩ : Fin cfg3.N)
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val ∧ (i 0).val < win3_6.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_6.index ⟨(i 0).val / 5000, hlt⟩ (1 : Fin 2) * 128 ≤ (i 1).val ∧ (i 1).val < win3_6.index ⟨(i 0).val / 5000, hlt⟩ (1 : Fin 2) * 128 + 128
    rw [e5]; omega

/-- After the region the output array is `G`. -/
theorem final (c : Dev nD) : (dat3 V c).arrAt 6 cfg3.N = G V c :=
  (dat3 V c).arrAt_eq_of_cover 6 (G V c) (fun t _ => flushed_eq V c t) cover

end Cert.KernelIdeal.Reg3

end
-- ==== Proof.ReadPay.lean ====
/-
  The readout kernel's stored value, read at one element. On the whole 512 x 128 pooled array the body computes the logits
  `p·W + b`, their row maximum `M`, the shifted logits `s = logits - M`, and `s - log (∑ exp s)`. Read on the extended reals:
  the product is a plain sum, a row maximum is the fold of `max` from minus infinity over the ten classes, a row sum is the
  sum over the ten classes, and the two keep-dimension steps (a length-512 vector viewed as a 512 x 1 column, the column
  broadcast over ten classes) read the vector at the row. Element `(r, q)` is the log-softmax of row `r`'s logits at `q`.
-/
import proofs.«135350_j47502338294214_1_alg».proof.Proof.Gen.KernelIdeal.Skeleton
import proofs.«135350_j47502338294214_1_alg».proof.Proof.MatmulAt
import proofs.«135350_j47502338294214_1_alg».proof.Proof.Spec
import Idealize.ShloMosaic.Lib.Pipeline.Value
import Idealize.ShloMosaic.Lib.ValueLayout

noncomputable section

namespace Cert.KernelIdeal.Pay

open Cert.KernelIdeal Cert.KernelIdeal.Gen Cert.KernelIdeal.At Cert.Gnn Idealize.ShloMosaic Idealize.ShloMosaic.ValueIdx

/-- A length-512 vector viewed as a 512 x 1 column reads, at `(r, u)`, the vector at `r`. -/
theorem col_cast_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_two, Shape.rowMajor_val_one]
    show r.val = r.val * 1 + u.val
    omega)

/-- A 512 x 1 column broadcast over ten classes reads, at `(r, c)`, the column at row `r`. -/
theorem col_bcast_apply {α : Type} (v : S512x1.Idx → α) (h : S512x1.Broadcasts S512x10) (r : Fin 512) (c : Fin 10) :
    broadcastTo S512x10 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The row maximum of a 512 x 10 array at row `r`: the fold of `max` from minus infinity over the ten classes. -/
theorem rowmax_apply (src : FVec Ideal S512x10 .f32) (h : S512x10.Reduces [1] S512) (hφ : FKind.Formats .f32)
    (hacc : (0xFF800000#32 : BitVec 32) = 0xFF800000#32) (r : Fin 512) :
    multiReduction .maximumf [1] S512 src 0xFF800000#32 h hφ hacc (ix1 r) = rowMax (fun k => src (ix2 r k)) := by
  refine (Ideal.multiReduction_maximumf_single src 0xFF800000#32 h hφ hacc (ix1 r)).trans ?_
  unfold rowMax
  refine congrArg (fun f => (Finset.univ : Finset (Fin 10)).fold max ninf32 f) (funext fun k => congrArg src (funext fun a => Fin.ext ?_))
  match a with
  | ⟨0, _⟩ => rfl
  | ⟨1, _⟩ => rfl

/-- The row sum of a 512 x 10 array at row `r`: the sum over the ten classes. -/
theorem rowsum_apply (src : FVec Ideal S512x10 .f32) (h : S512x10.Reduces [1] S512) (hφ : FKind.Formats .f32)
    (hacc : (0x00000000#32 : BitVec 32) = 0x00000000#32) (r : Fin 512) :
    multiReduction .add [1] S512 src 0x00000000#32 h hφ hacc (ix1 r) = ∑ k : Fin 10, src (ix2 r k) := by
  refine (Ideal.multiReduction_add_single src 0x00000000#32 h hφ hacc (ix1 r)).trans ?_
  show ∑ k : Fin 10, src (h.lift (ix1 r) k) = _
  refine Finset.sum_congr rfl fun k _ => congrArg src (funext fun a => Fin.ext ?_)
  match a with
  | ⟨0, _⟩ => rfl
  | ⟨1, _⟩ => rfl

theorem vexp_apply {s : Shape} (x : FVec Ideal s .f32) (i : s.Idx) : (exp x : FVec Ideal s .f32) i = Ideal.exp (x i) := rfl
theorem vlog_apply {s : Shape} (x : FVec Ideal s .f32) (i : s.Idx) : (log x : FVec Ideal s .f32) i = Ideal.log (x i) := rfl

/-- The stored value at `(r, q)` is the log-softmax of row `r`'s ten logits at class `q`. -/
theorem k4_pay1_apply (v0 : FVec Ideal S512x128 .f32) (v3 : FVec Ideal S128x10 .bf16) (v6 : FVec Ideal S1x10 .f32)
    (r : Fin 512) (q : Fin 10) :
    k4_pay1 (F := Ideal) v0 v3 v6 (ix2 r q)
      = logSoftmaxRow (logit (fun k => v0 (ix2 r k)) (fun k c => v3 (ix2 k c)) (fun c => v6 (ix2 (0 : Fin 1) c))) q := by
  unfold k4_pay1 logSoftmaxRow logit
  simp only [shapeCast_self, subf_apply, col_bcast_apply, col_cast_apply, vlog_apply]
  rw [rowsum_apply]
  simp only [vexp_apply, subf_apply, col_bcast_apply, col_cast_apply]
  rw [rowmax_apply]
  simp only [addf_apply, truncf_apply, matmul512_apply, broadcastTo_1b_ab_apply]

end Cert.KernelIdeal.Pay

end
-- ==== Proof.Region4.lean ====
/-
  Region 4 (the readout) as one whole-array function. The grid has one point, which stages the whole pooled array, the
  whole readout matrix and the whole bias row, and writes the whole 512 x 10 output back: after the region the output array
  is `readArr` of the three input arrays as the region finds them.
-/
import proofs.«135350_j47502338294214_1_alg».proof.Proof.Gen.KernelIdeal.Frame
import proofs.«135350_j47502338294214_1_alg».proof.Proof.ReadPay
import Idealize.ShloMosaic.Lib.Pipeline.Value

set_option maxRecDepth 16384

noncomputable section

namespace Cert.KernelIdeal.Reg4

open Cert.KernelIdeal Cert.KernelIdeal.Gen Cert.KernelIdeal.Pay Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window's block index is zero on both axes. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem blk_p (c : Dev nD) (t : Fin cfg4.N) (r : Fin 512) (k : Fin 128) : iblk4 V c 0 t (ix2 r k) = V c main_v66 (ix2 r k) := by
  show V c main_v66 (((cfg4.win 0).blk t).view.emb (ix2 r k)) = V c main_v66 (ix2 r k)
  obtain ⟨e0, e1, -⟩ := idx_facts t
  refine congrArg (V c main_v66) (funext fun a => Fin.ext ?_)
  match a with
  | ⟨0, _⟩ => show win4_0.index t (0 : Fin 2) * 512 + 1 * r.val = r.val; omega
  | ⟨1, _⟩ => show win4_0.index t (1 : Fin 2) * 128 + 1 * k.val = k.val; omega

theorem blk_w (c : Dev nD) (t : Fin cfg4.N) (k : Fin 128) (q : Fin 10) : iblk4 V c 1 t (ix2 k q) = V c main_v67 (ix2 k q) := by
  show V c main_v67 (((cfg4.win 1).blk t).view.emb (ix2 k q)) = V c main_v67 (ix2 k q)
  obtain ⟨-, -, e2, e3, -⟩ := idx_facts t
  refine congrArg (V c main_v67) (funext fun a => Fin.ext ?_)
  match a with
  | ⟨0, _⟩ => show win4_1.index t (0 : Fin 2) * 128 + 1 * k.val = k.val; omega
  | ⟨1, _⟩ => show win4_1.index t (1 : Fin 2) * 10 + 1 * q.val = q.val; omega

theorem blk_b (c : Dev nD) (t : Fin cfg4.N) (q : Fin 10) : iblk4 V c 2 t (ix2 (0 : Fin 1) q) = V c main_v68 (ix2 (0 : Fin 1) q) := by
  show V c main_v68 (((cfg4.win 2).blk t).view.emb (ix2 (0 : Fin 1) q)) = V c main_v68 (ix2 (0 : Fin 1) q)
  obtain ⟨-, -, -, -, e4, e5, -⟩ := idx_facts t
  refine congrArg (V c main_v68) (funext fun a => Fin.ext ?_)
  match a with
  | ⟨0, _⟩ => show win4_2.index t (0 : Fin 2) * 1 + 1 * 0 = 0; omega
  | ⟨1, _⟩ => show win4_2.index t (1 : Fin 2) * 10 + 1 * q.val = q.val; omega

/-- The whole-array function the region computes, of its three input arrays as the region finds them. -/
abbrev G (c : Dev nD) : (⟨2, ![512, 10]⟩ : Shape).Idx → EReal :=
  readArr (V c main_v66) (V c main_v67) (V c main_v68)

/-- The one point writes back the whole of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S512x128) hz, View.ld_unit_zero (S := S128x10) hz, View.ld_unit_zero (S := S1x10) hz]
  funext (y : S512x10.Idx)
  obtain ⟨r, q, rfl⟩ : ∃ (r : Fin 512) (q : Fin 10), y = ix2 r q := ⟨y 0, y 1, eq_ix2 y⟩
  obtain ⟨-, -, -, -, -, -, e6, e7⟩ := idx_facts t
  have hemb : ((cfg4.win 3).blk t).view.emb (ix2 r q) = ix2 r q := by
    funext a; apply Fin.ext
    match a with
    | ⟨0, _⟩ => show win4_3.index t (0 : Fin 2) * 512 + 1 * r.val = r.val; omega
    | ⟨1, _⟩ => show win4_3.index t (1 : Fin 2) * 10 + 1 * q.val = q.val; omega
  show k4_pay1 (iblk4 V c 0 t) (iblk4 V c 1 t) (iblk4 V c 2 t) (ix2 r q) = G V c (((cfg4.win 3).blk t).view.emb (ix2 r q))
  rw [hemb]
  refine (k4_pay1_apply (iblk4 V c 0 t) (iblk4 V c 1 t) (iblk4 V c 2 t) r q).trans ?_
  show _ = logSoftmaxRow (logit _ _ _) q
  simp only [blk_p V c t, blk_w V c t, blk_b V c t]

/-- An index of the output array is in the one block iff each coordinate is in the block's range on its axis. -/
theorem mem_blk (t : Fin cfg4.N) (i : S512x10.Idx) :
    i ∈ ((cfg4.win 3).blk t).view.set ↔ ∀ a : Fin 2, win4_3.index t a * S512x10.size a ≤ (i a).val ∧ (i a).val < win4_3.index t a * S512x10.size a + S512x10.size a := by
  show i ∈ ((View.whole main_v69).slice (win4_3.rect t)).set ↔ _
  rw [View.set_slice_whole, Rect.mem_set_unit]
  exact Iff.rfl

/-- Every index is in the one point's block. -/
theorem cover (i : S512x10.Idx) : ∃ t : Fin cfg4.N, (cfg4.win 3).flush t = true ∧ i ∈ ((cfg4.win 3).blk t).view.set := by
  have hi0 : (i 0).val < 512 := (i 0).isLt
  have hi1 : (i 1).val < 10 := (i 1).isLt
  obtain ⟨-, -, -, -, -, -, e6, e7⟩ := idx_facts t4_0
  refine ⟨t4_0, flush4_3 _, ?_⟩
  rw [mem_blk]
  intro a
  match a with
  | ⟨0, _⟩ =>
    show win4_3.index t4_0 (0 : Fin 2) * 512 ≤ (i 0).val ∧ (i 0).val < win4_3.index t4_0 (0 : Fin 2) * 512 + 512
    rw [e6]; omega
  | ⟨1, _⟩ =>
    show win4_3.index t4_0 (1 : Fin 2) * 10 ≤ (i 1).val ∧ (i 1).val < win4_3.index t4_0 (1 : Fin 2) * 10 + 10
    rw [e7]; omega

/-- After the region the output array is `G`. -/
theorem final (c : Dev nD) : (dat4 V c).arrAt 3 cfg4.N = G V c :=
  (dat4 V c).arrAt_eq_of_cover 3 (G V c) (fun t _ => flushed_eq V c t) cover

end Cert.KernelIdeal.Reg4

end
-- ==== Proof.Params.lean ====
/-
  How the parameter arrays enter the three stages. The edge matrix of a layer is a 256 x 128 array whose top 128 rows
  multiply the source row and whose bottom 128 rows multiply the destination row; a bias is a length-128 (or length-10)
  vector used as a one-row array. Both programs read the same entries; these definitions name them once.
-/
import proofs.«135350_j47502338294214_1_alg».proof.Proof.Spec

noncomputable section

namespace Cert.Gnn

open Idealize.ShloMosaic Idealize.ShloMosaic.ValueIdx

/-- Rows 0 … 127 of a 256 x 128 matrix. -/
def topHalf (W : (⟨2, ![256, 128]⟩ : Shape).Idx → EReal) : M128 := fun i => W (ix2 (⟨(i 0).val, by have := idx2_lt0 i; omega⟩ : Fin 256) (i 1))

/-- Rows 128 … 255 of a 256 x 128 matrix. -/
def botHalf (W : (⟨2, ![256, 128]⟩ : Shape).Idx → EReal) : M128 := fun i => W (ix2 (⟨128 + (i 0).val, by have := idx2_lt0 i; omega⟩ : Fin 256) (i 1))

/-- A length-128 vector as a one-row array. -/
def rowOf (b : (⟨1, ![128]⟩ : Shape).Idx → EReal) : B128 := fun i => b (ix1 (i 1))

/-- A length-10 vector as a one-row array. -/
def rowOf10 (b : (⟨1, ![10]⟩ : Shape).Idx → EReal) : (⟨2, ![1, 10]⟩ : Shape).Idx → EReal := fun i => b (ix1 (i 1))

/-- The pointwise `relu` of a node array. -/
def reluN (x : N128) : N128 := fun i => max (x i) z32

/-- The pointwise `relu` of an edge array. -/
def reluE (x : E128) : E128 := fun i => max (x i) z32

/-- The whole network as one function of the node features and the twenty parameter arrays, the four index-driven
    operations left as parameters: `gS`, `gD` gather a node array's rows at the edges' sources and destinations, `sc` adds
    the edge rows into their destination nodes, `pool` adds the node rows into their graphs. Two message-passing layers
    (edge stage, scatter, node stage), the second on the `relu` of the first layer's nodes and ending in a `relu`, then
    the pooled readout. -/
def net (gS gD : N128 → E128) (sc : E128 → N128) (pool : N128 → P128) (x : N128)
    (Wl2 : (⟨2, ![256, 128]⟩ : Shape).Idx → EReal) (bl2 : (⟨1, ![128]⟩ : Shape).Idx → EReal)
    (Wl3 : (⟨2, ![256, 128]⟩ : Shape).Idx → EReal) (bl3 : (⟨1, ![128]⟩ : Shape).Idx → EReal)
    (Wl1 : (⟨2, ![128, 10]⟩ : Shape).Idx → EReal) (bl1 : (⟨1, ![10]⟩ : Shape).Idx → EReal)
    (We1 : M128) (be1 : (⟨1, ![128]⟩ : Shape).Idx → EReal) (W11 : M128) (b11 : (⟨1, ![128]⟩ : Shape).Idx → EReal)
    (W12 : M128) (b12 : (⟨1, ![128]⟩ : Shape).Idx → EReal)
    (We2 : M128) (be2 : (⟨1, ![128]⟩ : Shape).Idx → EReal) (W21 : M128) (b21 : (⟨1, ![128]⟩ : Shape).Idx → EReal)
    (W22 : M128) (b22 : (⟨1, ![128]⟩ : Shape).Idx → EReal) : (⟨2, ![512, 10]⟩ : Shape).Idx → EReal :=
  let m1 := edgeArr false (gS x) (gS x) (gD x) (topHalf Wl2) (botHalf Wl2) (rowOf bl2) We1 (rowOf be1)
  let x1 := nodeArr false false x (sc m1) W11 (rowOf b11) W12 (rowOf b12)
  let m2 := edgeArr true (gS x1) (gS x1) (gD x1) (topHalf Wl3) (botHalf Wl3) (rowOf bl3) We2 (rowOf be2)
  let x2 := nodeArr true true x1 (sc m2) W21 (rowOf b21) W22 (rowOf b22)
  readArr (pool x2) Wl1 (rowOf10 bl1)

/-- A `relu` on the way into the edge stage is the edge stage of the `relu`'d source rows. -/
theorem edgeArr_pre (hs xs xd : E128) (wa wb : M128) (bl : B128) (we : M128) (be : B128) :
    edgeArr true hs xs xd wa wb bl we be = edgeArr false (reluE hs) xs xd wa wb bl we be := by
  funext i; unfold edgeArr edgeRow reluE; simp only [if_true, Bool.false_eq_true, if_false]

/-- A `relu` on the way into and out of the node stage. -/
theorem nodeArr_pre_post (h a : N128) (w1 : M128) (b1 : B128) (w2 : M128) (b2 : B128) :
    nodeArr true true h a w1 b1 w2 b2 = reluN (nodeArr false false (reluN h) a w1 b1 w2 b2) := by
  funext i; unfold nodeArr nodeRow reluN; simp only [if_true, Bool.false_eq_true, if_false]

end Cert.Gnn

end
-- ==== Proof.KernelValue.lean ====
/-
  The kernel program's result as the whole-network function of the launch arrays.

  Between its five kernel regions the program runs stretches of host operations: the gathers of node rows at the edges'
  sources and destinations (with negative indices wrapped), the scatter-adds of edge rows into their destination nodes and of
  node rows into their graphs, and the preparation of the parameters (the two halves of each 256 x 128 edge matrix, the casts
  to the narrow float format, the bias vectors viewed as one-row arrays). A buffer's contents at a region's entry are read by
  walking back through the boundaries: a region leaves every buffer but its output as it found it, and a host stretch
  leaves every buffer it does not write as it found it; a region's output is the whole-array function proved for that
  region. Reading the parameters element by element identifies them with the specification's `topHalf`, `botHalf`, `rowOf`.
-/
import proofs.«135350_j47502338294214_1_alg».proof.Proof.Region0
import proofs.«135350_j47502338294214_1_alg».proof.Proof.Region1
import proofs.«135350_j47502338294214_1_alg».proof.Proof.Region2
import proofs.«135350_j47502338294214_1_alg».proof.Proof.Region3
import proofs.«135350_j47502338294214_1_alg».proof.Proof.Region4
import proofs.«135350_j47502338294214_1_alg».proof.Proof.Params
import Idealize.ShloMosaic.Lib.StableHlo.Run
import Idealize.ShloMosaic.Lib.ValueLayout

set_option maxRecDepth 16384

noncomputable section

namespace Cert.KernelIdeal.Val

open Cert.KernelIdeal Cert.KernelIdeal.Gen Cert.Gnn
open Idealize.ShloMosaic Idealize.ShloMosaic.TcCoe Idealize.SL.Sem Idealize.ShloMosaic.StableHlo Idealize.ShloMosaic.ValueIdx

/-! ## The four index-driven operations, as functions of the edge list and the graph assignment -/

/-- Row `k` of the 2 x 800000 edge list as a length-800000 vector. -/
def edgeRowOf (k : Nat) (hk : S2x800000.Slices ![k, 0] S1x800000) (ei : IVec S2x800000 32) : IVec S800000 32 :=
  shapeCast _ (extractStridedSlice S1x800000 ![k, 0] ei hk) shapeCasts_S1x800000_S800000

/-- A negative node index wrapped around (jax's indexing convention), then viewed as a column of start indices. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Node rows gathered at the edges' sources. -/
def gS (ei : IVec S2x800000 32) (a : N128) : E128 :=
  Host.gather gather_S50000x128_S800000x1_S800000x128_1_0_n_n_0_1_1128 a (wrapCol (edgeRowOf 0 slices_S2x800000_S1x800000_0_0 ei))

/-- Node rows gathered at the edges' destinations. -/
def gD (ei : IVec S2x800000 32) (a : N128) : E128 :=
  Host.gather gather_S50000x128_S800000x1_S800000x128_1_0_n_n_0_1_1128 a (wrapCol (edgeRowOf 1 slices_S2x800000_S1x800000_1_0 ei))

/-- Edge rows added into their destination nodes, from zeros. -/
def sc (ei : IVec S2x800000 32) (u : E128) : N128 :=
  Host.scatterAdd (F := Ideal) (φ := .f32) scatter_S50000x128_S800000x1_S800000x128_1_0_0_1
    (broadcastInDim S50000x128 ![] bcast_S_S50000x128 (constant S_ .f32 0x00000000#32))
    (broadcastInDim S800000x1 ![0] bcast_S800000_S800000x1_0 (edgeRowOf 1 slices_S2x800000_S1x800000_1_0 ei)) u

/-- Node rows added into their graphs, from zeros. -/
def pool (bt : IVec S50000 32) (x : N128) : P128 :=
  Host.scatterAdd (F := Ideal) (φ := .f32) scatter_S512x128_S50000x1_S50000x128_1_0_0_1
    (broadcastInDim S512x128 ![] bcast_S_S512x128 (constant S_ .f32 0x00000000#32))
    (broadcastInDim S50000x1 ![0] bcast_S50000_S50000x1_0 bt) x

/-! ## The parameters, read element by element -/

/-- The top half of an edge matrix, cast to the narrow format, is `topHalf`. -/
theorem trunc_top (W : FVec Ideal S256x128 .f32) :
    (truncf .bf16 (extractStridedSlice S128x128 ![0, 0] W slices_S256x128_S128x128_0_0) bitsLt_bf16_f32 : M128) = topHalf W := by
  funext i
  obtain ⟨l, k, rfl⟩ : ∃ (l k : Fin 128), i = ix2 l k := ⟨i 0, i 1, eq_ix2 i⟩
  exact slice2_axis0_apply 0 W slices_S256x128_S128x128_0_0 l k ⟨l.val, by omega⟩ (by simp)

/-- The bottom half of an edge matrix, cast to the narrow format, is `botHalf`. -/
theorem trunc_bot (W : FVec Ideal S256x128 .f32) :
    (truncf .bf16 (extractStridedSlice S128x128 ![128, 0] W slices_S256x128_S128x128_128_0) bitsLt_bf16_f32 : M128) = botHalf W := by
  funext i
  obtain ⟨l, k, rfl⟩ : ∃ (l k : Fin 128), i = ix2 l k := ⟨i 0, i 1, eq_ix2 i⟩
  exact slice2_axis0_apply 128 W slices_S256x128_S128x128_128_0 l k ⟨128 + l.val, by omega⟩ rfl

/-- A cast to the narrow format is the identity on the extended reals. -/
theorem trunc_id (W : FVec Ideal S128x128 .f32) : (truncf .bf16 W bitsLt_bf16_f32 : M128) = W := rfl

theorem trunc_id10 (W : FVec Ideal S128x10 .f32) :
    (truncf .bf16 W bitsLt_bf16_f32 : (⟨2, ![128, 10]⟩ : Shape).Idx → EReal) = W := rfl

/-- A length-128 vector viewed as a one-row array is `rowOf`. -/
theorem cast_row (b : FVec Ideal S128 .f32) : (shapeCast S1x128 b shapeCasts_S128_S1x128 : B128) = rowOf b := by
  funext i
  obtain ⟨u, k, rfl⟩ : ∃ (u : Fin 1) (k : Fin 128), i = ix2 u k := ⟨i 0, i 1, eq_ix2 i⟩
  exact shapeCast_a_1a_apply b shapeCasts_S128_S1x128 u k

theorem cast_row10 (b : FVec Ideal S10 .f32) :
    (shapeCast S1x10 b shapeCasts_S10_S1x10 : (⟨2, ![1, 10]⟩ : Shape).Idx → EReal) = rowOf10 b := by
  funext i
  obtain ⟨u, k, rfl⟩ : ∃ (u : Fin 1) (k : Fin 10), i = ix2 u k := ⟨i 0, i 1, eq_ix2 i⟩
  exact shapeCast_a_1a_apply b shapeCasts_S10_S1x10 u k

/-! ## Walking a buffer back through the boundaries -/

variable (m : (ℓ : Loc nD τ sig) → Buf (Elt Ideal) ℓ) (ρ : Dev nD → PrngReg) (c : Dev nD)

theorem W2_ne (b : Ref sig .tc) (hb : ∀ w, Pipeline.arrRef spec0 w ≠ b) :
    W2 m ρ c (no_index (Proc.devRef .tc b)) = W1 m ρ c (Proc.devRef .tc b) := W2_of_ne m ρ c b hb
theorem W4_ne (b : Ref sig .tc) (hb : ∀ w, Pipeline.arrRef spec1 w ≠ b) :
    W4 m ρ c (no_index (Proc.devRef .tc b)) = W3 m ρ c (Proc.devRef .tc b) := W4_of_ne m ρ c b hb
theorem W6_ne (b : Ref sig .tc) (hb : ∀ w, Pipeline.arrRef spec2 w ≠ b) :
    W6 m ρ c (no_index (Proc.devRef .tc b)) = W5 m ρ c (Proc.devRef .tc b) := W6_of_ne m ρ c b hb
theorem W8_ne (b : Ref sig .tc) (hb : ∀ w, Pipeline.arrRef spec3 w ≠ b) :
    W8 m ρ c (no_index (Proc.devRef .tc b)) = W7 m ρ c (Proc.devRef .tc b) := W8_of_ne m ρ c b hb

/-- One pass: a host stretch's fold is evaluated at the buffer asked for, and a region leaves a buffer that is none of its
    arrays as it found it (the inequalities of references are decided). -/
macro "walk" : tactic =>
  `(tactic| simp (disch := decide) only [V1, V3, V5, V7, V9, W1, W3, W5, W7, W9, hostOps0, hostOps1, hostOps2, hostOps3, hostOps4,
      W2_ne, W4_ne, W6_ne, W8_ne, after_cons, after_nil,
      nullary_result', unary_result', binary_result', ternary_result', quaternary_result', reshape_result',
      nullary_result_ne', unary_result_ne', binary_result_ne', ternary_result_ne', quaternary_result_ne', reshape_result_ne'])

/-! ## The five regions' outputs -/

abbrev A0 : N128 := m ((c : Thread nD τ).loc main_arg0)
abbrev EI : IVec S2x800000 32 := m ((c : Thread nD τ).loc main_arg1)

/-- The first layer's messages. -/
def m1 : E128 :=
  edgeArr false (gS (EI m c) (A0 m c)) (gS (EI m c) (A0 m c)) (gD (EI m c) (A0 m c))
    (topHalf (m ((c : Thread nD τ).loc main_arg3))) (botHalf (m ((c : Thread nD τ).loc main_arg3)))
    (rowOf (m ((c : Thread nD τ).loc main_arg4))) (m ((c : Thread nD τ).loc main_arg9)) (rowOf (m ((c : Thread nD τ).loc main_arg10)))

/-- The first layer's nodes. -/
def x1 : N128 :=
  nodeArr false false (A0 m c) (sc (EI m c) (m1 m c)) (m ((c : Thread nD τ).loc main_arg11)) (rowOf (m ((c : Thread nD τ).loc main_arg12)))
    (m ((c : Thread nD τ).loc main_arg13)) (rowOf (m ((c : Thread nD τ).loc main_arg14)))

/-- The second layer's messages. -/
def m2 : E128 :=
  edgeArr true (gS (EI m c) (x1 m c)) (gS (EI m c) (x1 m c)) (gD (EI m c) (x1 m c))
    (topHalf (m ((c : Thread nD τ).loc main_arg5))) (botHalf (m ((c : Thread nD τ).loc main_arg5)))
    (rowOf (m ((c : Thread nD τ).loc main_arg6))) (m ((c : Thread nD τ).loc main_arg15)) (rowOf (m ((c : Thread nD τ).loc main_arg16)))

/-- The second layer's nodes. -/
def x2 : N128 :=
  nodeArr true true (x1 m c) (sc (EI m c) (m2 m c)) (m ((c : Thread nD τ).loc main_arg17)) (rowOf (m ((c : Thread nD τ).loc main_arg18)))
    (m ((c : Thread nD τ).loc main_arg19)) (rowOf (m ((c : Thread nD τ).loc main_arg20)))

/-- Region 0 leaves the first layer's messages in its output array. -/
theorem out0 : W2 m ρ c (Proc.devRef .tc main_v27) = m1 m c := by
  refine ((W2_arr m ρ c 7).trans (Reg0.final (V1 m ρ) c)).trans ?_
  have e14 : (V1 m ρ c main_v14 : E128) = gS (EI m c) (A0 m c) := by walk <;> rfl
  have e21 : (V1 m ρ c main_v21 : E128) = gD (EI m c) (A0 m c) := by walk <;> rfl
  have e22 : (V1 m ρ c main_v22 : M128) = topHalf (m ((c : Thread nD τ).loc main_arg3)) := by walk; exact trunc_top _
  have e23 : (V1 m ρ c main_v23 : M128) = botHalf (m ((c : Thread nD τ).loc main_arg3)) := by walk; exact trunc_bot _
  have e25 : (V1 m ρ c main_v25 : B128) = rowOf (m ((c : Thread nD τ).loc main_arg4)) := by walk; exact cast_row _
  have e24 : (V1 m ρ c main_v24 : M128) = m ((c : Thread nD τ).loc main_arg9) := by walk <;> rfl
  have e26 : (V1 m ρ c main_v26 : B128) = rowOf (m ((c : Thread nD τ).loc main_arg10)) := by walk; exact cast_row _
  show edgeArr false (V1 m ρ c main_v14) (V1 m ρ c main_v14) (V1 m ρ c main_v21) (V1 m ρ c main_v22) (V1 m ρ c main_v23)
    (V1 m ρ c main_v25) (V1 m ρ c main_v24) (V1 m ρ c main_v26) = _
  rw [e14, e21, e22, e23, e25, e24, e26]
  rfl

set_option maxHeartbeats 16000000 in
/-- Region 1 leaves the first layer's nodes in its output array. -/
theorem out1 : W4 m ρ c (Proc.devRef .tc main_v35) = x1 m c := by
  refine ((W4_arr m ρ c 6).trans (Reg1.final (V3 m ρ) c)).trans ?_
  have e0 : (V3 m ρ c main_arg0 : N128) = A0 m c := by walk <;> rfl
  have e30 : (V3 m ρ c main_v30 : N128) = sc (EI m c) (m1 m c) := by walk; rw [out0 m ρ c]; rfl
  have e31 : (V3 m ρ c main_v31 : M128) = (m ((c : Thread nD τ).loc main_arg11)) := by walk <;> rfl
  have e33 : (V3 m ρ c main_v33 : B128) = rowOf (m ((c : Thread nD τ).loc main_arg12)) := by walk; exact cast_row _
  have e32 : (V3 m ρ c main_v32 : M128) = (m ((c : Thread nD τ).loc main_arg13)) := by walk <;> rfl
  have e34 : (V3 m ρ c main_v34 : B128) = rowOf (m ((c : Thread nD τ).loc main_arg14)) := by walk; exact cast_row _
  show nodeArr false false (V3 m ρ c main_arg0) (V3 m ρ c main_v30) (V3 m ρ c main_v31) (V3 m ρ c main_v33) (V3 m ρ c main_v32)
    (V3 m ρ c main_v34) = _
  rw [e0, e30, e31, e33, e32, e34]
  rfl

set_option maxHeartbeats 16000000 in
/-- Region 2 leaves the second layer's messages in its output array. -/
theorem out2 : W6 m ρ c (Proc.devRef .tc main_v55) = m2 m c := by
  refine ((W6_arr m ρ c 7).trans (Reg2.final (V5 m ρ) c)).trans ?_
  have e42 : (V5 m ρ c main_v42 : E128) = gS (EI m c) (x1 m c) := by walk; rw [out1 m ρ c]; rfl
  have e49 : (V5 m ρ c main_v49 : E128) = gD (EI m c) (x1 m c) := by walk; rw [out1 m ρ c]; rfl
  have e50 : (V5 m ρ c main_v50 : M128) = topHalf (m ((c : Thread nD τ).loc main_arg5)) := by walk; exact trunc_top _
  have e51 : (V5 m ρ c main_v51 : M128) = botHalf (m ((c : Thread nD τ).loc main_arg5)) := by walk; exact trunc_bot _
  have e53 : (V5 m ρ c main_v53 : B128) = rowOf (m ((c : Thread nD τ).loc main_arg6)) := by walk; exact cast_row _
  have e52 : (V5 m ρ c main_v52 : M128) = (m ((c : Thread nD τ).loc main_arg15)) := by walk <;> rfl
  have e54 : (V5 m ρ c main_v54 : B128) = rowOf (m ((c : Thread nD τ).loc main_arg16)) := by walk; exact cast_row _
  show edgeArr true (V5 m ρ c main_v42) (V5 m ρ c main_v42) (V5 m ρ c main_v49) (V5 m ρ c main_v50) (V5 m ρ c main_v51)
    (V5 m ρ c main_v53) (V5 m ρ c main_v52) (V5 m ρ c main_v54) = _
  rw [e42, e49, e50, e51, e53, e52, e54]
  rfl

set_option maxHeartbeats 16000000 in
/-- Region 3 leaves the second layer's nodes in its output array. -/
theorem out3 : W8 m ρ c (Proc.devRef .tc main_v63) = x2 m c := by
  refine ((W8_arr m ρ c 6).trans (Reg3.final (V7 m ρ) c)).trans ?_
  have e35 : (V7 m ρ c main_v35 : N128) = x1 m c := by walk; rw [out1 m ρ c]
  have e58 : (V7 m ρ c main_v58 : N128) = sc (EI m c) (m2 m c) := by walk; rw [out2 m ρ c]; rfl
  have e59 : (V7 m ρ c main_v59 : M128) = (m ((c : Thread nD τ).loc main_arg17)) := by walk <;> rfl
  have e61 : (V7 m ρ c main_v61 : B128) = rowOf (m ((c : Thread nD τ).loc main_arg18)) := by walk; exact cast_row _
  have e60 : (V7 m ρ c main_v60 : M128) = (m ((c : Thread nD τ).loc main_arg19)) := by walk <;> rfl
  have e62 : (V7 m ρ c main_v62 : B128) = rowOf (m ((c : Thread nD τ).loc main_arg20)) := by walk; exact cast_row _
  show nodeArr true true (V7 m ρ c main_v35) (V7 m ρ c main_v58) (V7 m ρ c main_v59) (V7 m ρ c main_v61) (V7 m ρ c main_v60)
    (V7 m ρ c main_v62) = _
  rw [e35, e58, e59, e61, e60, e62]
  rfl

set_option maxHeartbeats 16000000 in
/-- Region 4 leaves the readout of the pooled second-layer nodes in the result array. -/
theorem out4 : W10 m ρ c (Proc.devRef .tc main_v69)
    = readArr (pool (m ((c : Thread nD τ).loc main_arg2)) (x2 m c)) (m ((c : Thread nD τ).loc main_arg7)) (rowOf10 (m ((c : Thread nD τ).loc main_arg8))) := by
  refine ((W10_arr m ρ c 3).trans (Reg4.final (V9 m ρ) c)).trans ?_
  have e66 : (V9 m ρ c main_v66 : P128) = pool (m ((c : Thread nD τ).loc main_arg2)) (x2 m c) := by walk; rw [out3 m ρ c]; rfl
  have e67 : (V9 m ρ c main_v67 : (⟨2, ![128, 10]⟩ : Shape).Idx → EReal) = (m ((c : Thread nD τ).loc main_arg7)) := by walk <;> rfl
  have e68 : (V9 m ρ c main_v68 : (⟨2, ![1, 10]⟩ : Shape).Idx → EReal) = rowOf10 (m ((c : Thread nD τ).loc main_arg8)) := by walk; exact cast_row10 _
  show readArr (V9 m ρ c main_v66) (V9 m ρ c main_v67) (V9 m ρ c main_v68) = _
  rw [e66, e67, e68]

/-- THE KERNEL PROGRAM'S RESULT: the whole-network function of the launch arrays. -/
theorem result : W10 m ρ c (Proc.devRef .tc main_v69)
    = net (gS (EI m c)) (gD (EI m c)) (sc (EI m c)) (pool (m ((c : Thread nD τ).loc main_arg2))) (A0 m c)
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [out4 m ρ c]
  rfl

end Cert.KernelIdeal.Val

end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.RefDot.lean ====
/-
  The reference's matrix products, read at one element on the extended reals: the host's `dot_general` with one contracted
  axis is the plain sum over that axis of the products of the left array's row and the right matrix's column. One lemma per
  shape the reference uses (the joined 800000 x 256 rows against the 256 x 128 edge matrix; 800000 x 128 and 50000 x 128
  rows against 128 x 128 matrices; the 512 x 128 pooled rows against the 128 x 10 readout matrix).
-/
import proofs.«135350_j47502338294214_1_alg».proof.Proof.Gen.ReferenceIdeal
import Idealize.ShloMosaic.PureOps.Ideal.Laws
import Idealize.ShloMosaic.Lib.ValueIdx

noncomputable section

namespace Cert.ReferenceIdeal.At

open Cert.ReferenceIdeal Idealize.ShloMosaic Idealize.ShloMosaic.ValueIdx

/-- Element `(p, q)` of the host product of a 800000 x 256 array and a 256 x 128 matrix: `∑ k, lhs (p, k) * rhs (k, q)`. -/
theorem dot256_apply (lhs : FVec Ideal S800000x256 .f32) (rhs : FVec Ideal S256x128 .f32) (p : Fin 800000) (q : Fin 128) :
    Host.dotGeneral dot_S800000x256_S256x128_S800000x128_1_0_0_1_n_n none lhs rhs (ix2 p q) = ∑ k : Fin 256, lhs (ix2 p k) * rhs (ix2 k q) := by
  refine (Ideal.dotGeneral_apply dot_S800000x256_S256x128_S800000x128_1_0_0_1_n_n none .single lhs rhs (ix2 p q)).trans ?_
  rw [← Equiv.sum_comp (contrEquiv1 dot_S800000x256_S256x128_S800000x128_1_0_0_1_n_n 256 rfl rfl).symm]
  refine Finset.sum_congr rfl fun k _ => ?_
  have hk := contrEquiv1_symm_val dot_S800000x256_S256x128_S800000x128_1_0_0_1_n_n 256 rfl rfl k
  have el : dot_S800000x256_S256x128_S800000x128_1_0_0_1_n_n.lhsIdx (ix2 p q) ((contrEquiv1 dot_S800000x256_S256x128_S800000x128_1_0_0_1_n_n 256 rfl rfl).symm k) = ix2 p k := funext fun a => Fin.ext (by
    match a with
    | ⟨0, _⟩ =>
      show (dot_S800000x256_S256x128_S800000x128_1_0_0_1_n_n.lhsIdx (ix2 p q) _ 0).val = p.val
      unfold DotDims.lhsIdx
      rw [dif_neg (show ¬(0 : Fin S800000x256.rank) ∈ dot_S800000x256_S256x128_S800000x128_1_0_0_1_n_n.lhsBatch by decide), dif_pos (show (0 : Fin S800000x256.rank) ∈ dot_S800000x256_S256x128_S800000x128_1_0_0_1_n_n.lhsNonContracting by decide)]
      rfl
    | ⟨1, _⟩ => exact (dot_S800000x256_S256x128_S800000x128_1_0_0_1_n_n.lhsIdx_val_of_single rfl _ _).trans hk)
  have er : dot_S800000x256_S256x128_S800000x128_1_0_0_1_n_n.rhsIdx (ix2 p q) ((contrEquiv1 dot_S800000x256_S256x128_S800000x128_1_0_0_1_n_n 256 rfl rfl).symm k) = ix2 k q := funext fun a => Fin.ext (by
    match a with
    | ⟨0, _⟩ => exact (dot_S800000x256_S256x128_S800000x128_1_0_0_1_n_n.rhsIdx_val_of_single rfl _ _).trans hk
    | ⟨1, _⟩ =>
      show (dot_S800000x256_S256x128_S800000x128_1_0_0_1_n_n.rhsIdx (ix2 p q) _ 1).val = q.val
      unfold DotDims.rhsIdx
      rw [dif_neg (show ¬(1 : Fin S256x128.rank) ∈ dot_S800000x256_S256x128_S800000x128_1_0_0_1_n_n.rhsBatch by decide), dif_pos (show (1 : Fin S256x128.rank) ∈ dot_S800000x256_S256x128_S800000x128_1_0_0_1_n_n.rhsNonContracting by decide)]
      rfl)
  rw [el, er]

/-- Element `(p, q)` of the host product of a 800000 x 128 array and a 128 x 128 matrix: `∑ k, lhs (p, k) * rhs (k, q)`. -/
theorem dotE_apply (lhs : FVec Ideal S800000x128 .f32) (rhs : FVec Ideal S128x128 .f32) (p : Fin 800000) (q : Fin 128) :
    Host.dotGeneral dot_S800000x128_S128x128_S800000x128_1_0_0_1_n_n none lhs rhs (ix2 p q) = ∑ k : Fin 128, lhs (ix2 p k) * rhs (ix2 k q) := by
  refine (Ideal.dotGeneral_apply dot_S800000x128_S128x128_S800000x128_1_0_0_1_n_n none .single lhs rhs (ix2 p q)).trans ?_
  rw [← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 p q) ((contrEquiv1 dot_S800000x128_S128x128_S800000x128_1_0_0_1_n_n 128 rfl rfl).symm k) = ix2 p k := funext fun a => Fin.ext (by
    match a with
    | ⟨0, _⟩ =>
      show (dot_S800000x128_S128x128_S800000x128_1_0_0_1_n_n.lhsIdx (ix2 p q) _ 0).val = p.val
      unfold DotDims.lhsIdx
      rw [dif_neg (show ¬(0 : Fin S800000x128.rank) ∈ dot_S800000x128_S128x128_S800000x128_1_0_0_1_n_n.lhsBatch by decide), dif_pos (show (0 : Fin S800000x128.rank) ∈ dot_S800000x128_S128x128_S800000x128_1_0_0_1_n_n.lhsNonContracting by decide)]
      rfl
    | ⟨1, _⟩ => exact (dot_S800000x128_S128x128_S800000x128_1_0_0_1_n_n.lhsIdx_val_of_single rfl _ _).trans hk)
  have er : dot_S800000x128_S128x128_S800000x128_1_0_0_1_n_n.rhsIdx (ix2 p q) ((contrEquiv1 dot_S800000x128_S128x128_S800000x128_1_0_0_1_n_n 128 rfl rfl).symm k) = ix2 k q := funext fun a => Fin.ext (by
    match a with
    | ⟨0, _⟩ => exact (dot_S800000x128_S128x128_S800000x128_1_0_0_1_n_n.rhsIdx_val_of_single rfl _ _).trans hk
    | ⟨1, _⟩ =>
      show (dot_S800000x128_S128x128_S800000x128_1_0_0_1_n_n.rhsIdx (ix2 p q) _ 1).val = q.val
      unfold DotDims.rhsIdx
      rw [dif_neg (show ¬(1 : Fin S128x128.rank) ∈ dot_S800000x128_S128x128_S800000x128_1_0_0_1_n_n.rhsBatch by decide), dif_pos (show (1 : Fin S128x128.rank) ∈ dot_S800000x128_S128x128_S800000x128_1_0_0_1_n_n.rhsNonContracting by decide)]
      rfl)
  rw [el, er]

/-- Element `(p, q)` of the host product of a 50000 x 128 array and a 128 x 128 matrix: `∑ k, lhs (p, k) * rhs (k, q)`. -/
theorem dotN_apply (lhs : FVec Ideal S50000x128 .f32) (rhs : FVec Ideal S128x128 .f32) (p : Fin 50000) (q : Fin 128) :
    Host.dotGeneral dot_S50000x128_S128x128_S50000x128_1_0_0_1_n_n none lhs rhs (ix2 p q) = ∑ k : Fin 128, lhs (ix2 p k) * rhs (ix2 k q) := by
  refine (Ideal.dotGeneral_apply dot_S50000x128_S128x128_S50000x128_1_0_0_1_n_n none .single lhs rhs (ix2 p q)).trans ?_
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ =>
      show (dot_S50000x128_S128x128_S50000x128_1_0_0_1_n_n.lhsIdx (ix2 p q) _ 0).val = p.val
      unfold DotDims.lhsIdx
      rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
      rfl
    | ⟨1, _⟩ => exact (dot_S50000x128_S128x128_S50000x128_1_0_0_1_n_n.lhsIdx_val_of_single rfl _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dot_S50000x128_S128x128_S50000x128_1_0_0_1_n_n.rhsIdx_val_of_single rfl _ _).trans hk
    | ⟨1, _⟩ =>
      show (dot_S50000x128_S128x128_S50000x128_1_0_0_1_n_n.rhsIdx (ix2 p q) _ 1).val = q.val
      unfold DotDims.rhsIdx
      rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
      rfl)
  rw [el, er]

/-- Element `(p, q)` of the host product of a 512 x 128 array and a 128 x 10 matrix: `∑ k, lhs (p, k) * rhs (k, q)`. -/
theorem dotP_apply (lhs : FVec Ideal S512x128 .f32) (rhs : FVec Ideal S128x10 .f32) (p : Fin 512) (q : Fin 10) :
    Host.dotGeneral dot_S512x128_S128x10_S512x10_1_0_0_1_n_n none lhs rhs (ix2 p q) = ∑ k : Fin 128, lhs (ix2 p k) * rhs (ix2 k q) := by
  refine (Ideal.dotGeneral_apply dot_S512x128_S128x10_S512x10_1_0_0_1_n_n none .single lhs rhs (ix2 p q)).trans ?_
  rw [← Equiv.sum_comp (contrEquiv1 dot_S512x128_S128x10_S512x10_1_0_0_1_n_n 128 rfl rfl).symm]
  refine Finset.sum_congr rfl fun k _ => ?_
  have hk := contrEquiv1_symm_val dot_S512x128_S128x10_S512x10_1_0_0_1_n_n 128 rfl rfl k
  have el : dot_S512x128_S128x10_S512x10_1_0_0_1_n_n.lhsIdx (ix2 p q) ((contrEquiv1 dot_S512x128_S128x10_S512x10_1_0_0_1_n_n 128 rfl rfl).symm k) = ix2 p k := funext fun a => Fin.ext (by
    match a with
    | ⟨0, _⟩ =>
      show (dot_S512x128_S128x10_S512x10_1_0_0_1_n_n.lhsIdx (ix2 p q) _ 0).val = p.val
      unfold DotDims.lhsIdx
      rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
      rfl
    | ⟨1, _⟩ => exact (dot_S512x128_S128x10_S512x10_1_0_0_1_n_n.lhsIdx_val_of_single rfl _ _).trans hk)
  have er : dot_S512x128_S128x10_S512x10_1_0_0_1_n_n.rhsIdx (ix2 p q) ((contrEquiv1 dot_S512x128_S128x10_S512x10_1_0_0_1_n_n 128 rfl rfl).symm k) = ix2 k q := funext fun a => Fin.ext (by
    match a with
    | ⟨0, _⟩ => exact (dot_S512x128_S128x10_S512x10_1_0_0_1_n_n.rhsIdx_val_of_single rfl _ _).trans hk
    | ⟨1, _⟩ =>
      show (dot_S512x128_S128x10_S512x10_1_0_0_1_n_n.rhsIdx (ix2 p q) _ 1).val = q.val
      unfold DotDims.rhsIdx
      rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
      rfl)
  rw [el, er]

end Cert.ReferenceIdeal.At

end
-- ==== Proof.RefStages.lean ====
/-
  The reference's three stages, each as the whole-array function of the specification.

  The reference is a chain of host operations. Read at one element on the extended reals: a `dot_general` is a sum of
  products, a bias broadcast over the rows reads the bias at the column, `relu` is the maximum with the zero word, the joined
  array `[xs, xd]` reads `xs` on its first 128 columns and `xd` on the other 128, a row maximum from minus infinity is the fold
  of `max`, and a row sum from zero is the sum. The one rearrangement: the product of the joined 256-long row with the whole
  256 x 128 matrix is the sum of the two 128-long products (a sum over 256 = 128 + 128 indices split in two).
-/
import proofs.«135350_j47502338294214_1_alg».proof.Proof.RefDot
import proofs.«135350_j47502338294214_1_alg».proof.Proof.Params
import Idealize.ShloMosaic.Lib.Pipeline.Value
import Idealize.ShloMosaic.Lib.ValueLayout

noncomputable section

namespace Cert.ReferenceIdeal.Stages

open Cert.ReferenceIdeal Cert.ReferenceIdeal.Facts₀ Cert.ReferenceIdeal.At Cert.Gnn Idealize.ShloMosaic Idealize.ShloMosaic.ValueIdx

/-! ## The small readings -/

/-- A bias vector broadcast over the 800000 edge rows reads the bias at the column. -/
theorem biasE_apply (b : FVec Ideal S128 .f32) (p : Fin 800000) (q : Fin 128) :
    broadcastInDim S800000x128 ![0, 1] bcast_S1x128_S800000x128_0_1 (broadcastInDim S1x128 ![1] bcast_S128_S1x128_1 b) (ix2 p q) = b (ix1 q) :=
  (broadcastInDim_apply ![0, 1] bcast_S1x128_S800000x128_0_1 _ (ix2 p q) (ix2 (0 : Fin 1) q)
      (fun a => by match a with | ⟨0, _⟩ => rfl | ⟨1, _⟩ => rfl)).trans
    (broadcastInDim_apply ![1] bcast_S128_S1x128_1 b (ix2 (0 : Fin 1) q) (ix1 q) (fun a => by match a with | ⟨0, _⟩ => rfl))

/-- A bias vector broadcast over the 50000 node rows reads the bias at the column. -/
theorem biasN_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply ![0, 1] bcast_S1x128_S50000x128_0_1 _ (ix2 p q) (ix2 (0 : Fin 1) q)
      (fun a => by match a with | ⟨0, _⟩ => rfl | ⟨1, _⟩ => rfl)).trans
    (broadcastInDim_apply ![1] bcast_S128_S1x128_1 b (ix2 (0 : Fin 1) q) (ix1 q) (fun a => by match a with | ⟨0, _⟩ => rfl))

/-- The readout bias broadcast over the 512 pooled rows reads the bias at the class. -/
theorem biasP_apply (b : FVec Ideal S10 .f32) (p : Fin 512) (q : Fin 10) :
    broadcastInDim S512x10 ![0, 1] bcast_S1x10_S512x10_0_1 (broadcastInDim S1x10 ![1] bcast_S10_S1x10_1 b) (ix2 p q) = b (ix1 q) :=
  (broadcastInDim_apply ![0, 1] bcast_S1x10_S512x10_0_1 _ (ix2 p q) (ix2 (0 : Fin 1) q)
      (fun a => by match a with | ⟨0, _⟩ => rfl | ⟨1, _⟩ => rfl)).trans
    (broadcastInDim_apply ![1] bcast_S10_S1x10_1 b (ix2 (0 : Fin 1) q) (ix1 q) (fun a => by match a with | ⟨0, _⟩ => rfl))

/-- The zero word broadcast to any shape reads the zero word. -/
theorem zeroE_apply (i : S800000x128.Idx) :
    broadcastInDim S800000x128 ![] bcast_S_S800000x128 (constant (F := Ideal) S_ .f32 0x00000000#32) i = z32 :=
  (broadcastInDim_apply ![] bcast_S_S800000x128 _ i ix0 (fun a => a.elim0)).trans rfl

theorem zeroN_apply (i : S50000x128.Idx) :
    broadcastInDim S50000x128 ![] bcast_S_S50000x128 (constant (F := Ideal) S_ .f32 0x00000000#32) i = z32 :=
  (broadcastInDim_apply ![] bcast_S_S50000x128 _ i ix0 (fun a => a.elim0)).trans rfl

/-- The same readings as equalities of whole arrays. -/
theorem biasE_eq (b : FVec Ideal S128 .f32) :
    broadcastInDim S800000x128 ![0, 1] bcast_S1x128_S800000x128_0_1 (broadcastInDim S1x128 ![1] bcast_S128_S1x128_1 b)
      = fun i : S800000x128.Idx => b (ix1 (i 1)) := by
  funext i
  obtain ⟨p, q, rfl⟩ : ∃ (p : Fin 800000) (q : Fin 128), i = ix2 p q := ⟨i 0, i 1, eq_ix2 i⟩
  exact biasE_apply b p q

theorem biasN_eq (b : FVec Ideal S128 .f32) :
    broadcastInDim S50000x128 ![0, 1] bcast_S1x128_S50000x128_0_1 (broadcastInDim S1x128 ![1] bcast_S128_S1x128_1 b)
      = fun i : S50000x128.Idx => b (ix1 (i 1)) := by
  funext i
  obtain ⟨p, q, rfl⟩ : ∃ (p : Fin 50000) (q : Fin 128), i = ix2 p q := ⟨i 0, i 1, eq_ix2 i⟩
  exact biasN_apply b p q

theorem biasP_eq (b : FVec Ideal S10 .f32) :
    broadcastInDim S512x10 ![0, 1] bcast_S1x10_S512x10_0_1 (broadcastInDim S1x10 ![1] bcast_S10_S1x10_1 b)
      = fun i : S512x10.Idx => b (ix1 (i 1)) := by
  funext i
  obtain ⟨p, q, rfl⟩ : ∃ (p : Fin 512) (q : Fin 10), i = ix2 p q := ⟨i 0, i 1, eq_ix2 i⟩
  exact biasP_apply b p q

theorem zeroE_eq :
    broadcastInDim S800000x128 ![] bcast_S_S800000x128 (constant (F := Ideal) S_ .f32 0x00000000#32) = fun _ : S800000x128.Idx => z32 :=
  funext fun i => zeroE_apply i

theorem zeroN_eq :
    broadcastInDim S50000x128 ![] bcast_S_S50000x128 (constant (F := Ideal) S_ .f32 0x00000000#32) = fun _ : S50000x128.Idx => z32 :=
  funext fun i => zeroN_apply i

/-- The joined array on its first 128 columns is the first operand. -/
theorem cat_left (xs xd : FVec Ideal S800000x128 .f32) (p : Fin 800000) (l : Fin 128) :
    concatenate S800000x256 1 [⟨S800000x128, xs⟩, ⟨S800000x128, xd⟩] concatenates_S800000x128_S800000x128_S800000x256_d1
      (ix2 p (⟨l.val, by omega⟩ : Fin 256)) = xs (ix2 p l) :=
  concatenate_pair_apply_left 1 xs xd concatenates_S800000x128_S800000x128_S800000x256_d1 (ix2 p (⟨l.val, by omega⟩ : Fin 256)) rfl (ix2 p l)
    (fun b => by match b with | ⟨0, _⟩ => rfl | ⟨1, _⟩ => rfl)

/-- The joined array on its last 128 columns is the second operand. -/
theorem cat_right (xs xd : FVec Ideal S800000x128 .f32) (p : Fin 800000) (l : Fin 128) :
    concatenate S800000x256 1 [⟨S800000x128, xs⟩, ⟨S800000x128, xd⟩] concatenates_S800000x128_S800000x128_S800000x256_d1
      (ix2 p (⟨128 + l.val, by omega⟩ : Fin 256)) = xd (ix2 p l) :=
  concatenate_pair_apply_right 1 xs xd concatenates_S800000x128_S800000x128_S800000x256_d1 (ix2 p (⟨128 + l.val, by omega⟩ : Fin 256)) rfl rfl (ix2 p l)
    (fun b hb => by match b with | ⟨0, _⟩ => rfl | ⟨1, _⟩ => exact absurd rfl hb)
    (by show l.val + 128 = 128 + l.val; omega)

/-! ## The edge stage -/

/-- `relu (hs + ((([xs, xd]·W + b)·We) + be))` is the edge stage of the specification, the whole edge matrix split in its halves. -/
theorem ref_edge (hs xs xd : FVec Ideal S800000x128 .f32) (W : FVec Ideal S256x128 .f32) (b : FVec Ideal S128 .f32)
    (We : FVec Ideal S128x128 .f32) (be : FVec Ideal S128 .f32) :
    maximumf (addf hs (addf (Host.dotGeneral dot_S800000x128_S128x128_S800000x128_1_0_0_1_n_n none
        (addf (Host.dotGeneral dot_S800000x256_S256x128_S800000x128_1_0_0_1_n_n none
            (concatenate S800000x256 1 [⟨S800000x128, xs⟩, ⟨S800000x128, xd⟩] concatenates_S800000x128_S800000x128_S800000x256_d1) W)
          (broadcastInDim S800000x128 ![0, 1] bcast_S1x128_S800000x128_0_1 (broadcastInDim S1x128 ![1] bcast_S128_S1x128_1 b))) We)
        (broadcastInDim S800000x128 ![0, 1] bcast_S1x128_S800000x128_0_1 (broadcastInDim S1x128 ![1] bcast_S128_S1x128_1 be))))
      (broadcastInDim S800000x128 ![] bcast_S_S800000x128 (constant S_ .f32 0x00000000#32))
    = edgeArr false hs xs xd (topHalf W) (botHalf W) (rowOf b) We (rowOf be) := by
  rw [biasE_eq b, biasE_eq be, zeroE_eq]
  funext i
  obtain ⟨p, q, rfl⟩ : ∃ (p : Fin 800000) (q : Fin 128), i = ix2 p q := ⟨i 0, i 1, eq_ix2 i⟩
  unfold edgeArr edgeRow topHalf botHalf rowOf
  simp only [maximumf_apply, addf_apply, dotE_apply, dot256_apply, sum_split_256, cat_left, cat_right,
    Bool.false_eq_true, if_false]

/-! ## The node stage -/

/-- `relu ((h + a)·W1 + b1)·W2 + b2` is the node stage of the specification with no `relu` on the way in or out. -/
theorem ref_node (h a : FVec Ideal S50000x128 .f32) (W1 : FVec Ideal S128x128 .f32) (b1 : FVec Ideal S128 .f32)
    (W2 : FVec Ideal S128x128 .f32) (b2 : FVec Ideal S128 .f32) :
    addf (Host.dotGeneral dot_S50000x128_S128x128_S50000x128_1_0_0_1_n_n none
        (maximumf (addf (Host.dotGeneral dot_S50000x128_S128x128_S50000x128_1_0_0_1_n_n none (addf h a) W1)
            (broadcastInDim S50000x128 ![0, 1] bcast_S1x128_S50000x128_0_1 (broadcastInDim S1x128 ![1] bcast_S128_S1x128_1 b1)))
          (broadcastInDim S50000x128 ![] bcast_S_S50000x128 (constant S_ .f32 0x00000000#32))) W2)
      (broadcastInDim S50000x128 ![0, 1] bcast_S1x128_S50000x128_0_1 (broadcastInDim S1x128 ![1] bcast_S128_S1x128_1 b2))
    = nodeArr false false h a W1 (rowOf b1) W2 (rowOf b2) := by
  rw [biasN_eq b1, biasN_eq b2, zeroN_eq]
  funext i
  obtain ⟨p, q, rfl⟩ : ∃ (p : Fin 50000) (q : Fin 128), i = ix2 p q := ⟨i 0, i 1, eq_ix2 i⟩
  unfold nodeArr nodeRow rowOf
  simp only [maximumf_apply, addf_apply, dotN_apply, Bool.false_eq_true, if_false]

/-! ## The readout -/

/-- Minus infinity is the least extended real. -/
theorem ninf_max (y : EReal) : max ninf32 y = y := by
  show max (Ideal.ofBits .f32 0xFF800000#32) y = y
  simp [Ideal.ofBits, Ideal.ieee]

theorem ninfP_eq :
    broadcastInDim S512 ![] bcast_S_S512 (constant (F := Ideal) S_ .f32 0xFF800000#32) = fun _ : S512.Idx => ninf32 :=
  funext fun i => (broadcastInDim_apply ![] bcast_S_S512 _ i ix0 (fun a => a.elim0)).trans rfl

/-- A length-512 vector viewed as a 512 x 1 column reads the vector at the row. -/
theorem col1_eq {α : Type} (v : S512.Idx → α) :
    broadcastInDim S512x1 ![0] bcast_S512_S512x1_0 v = fun i : S512x1.Idx => v (ix1 (i 0)) := by
  funext i
  obtain ⟨r, u, rfl⟩ : ∃ (r : Fin 512) (u : Fin 1), i = ix2 r u := ⟨i 0, i 1, eq_ix2 i⟩
  exact broadcastInDim_apply ![0] bcast_S512_S512x1_0 v (ix2 r u) (ix1 r) (fun a => by match a with | ⟨0, _⟩ => rfl)

/-- A 512 x 1 column broadcast over the ten classes reads the column at the row. -/
theorem col2_eq {α : Type} (w : S512x1.Idx → α) :
    broadcastInDim S512x10 ![0, 1] bcast_S512x1_S512x10_0_1 w = fun i : S512x10.Idx => w (ix2 (i 0) (0 : Fin 1)) := by
  funext i
  obtain ⟨r, q, rfl⟩ : ∃ (r : Fin 512) (q : Fin 10), i = ix2 r q := ⟨i 0, i 1, eq_ix2 i⟩
  exact broadcastInDim_apply ![0, 1] bcast_S512x1_S512x10_0_1 w (ix2 r q) (ix2 r (0 : Fin 1))
    (fun a => by match a with | ⟨0, _⟩ => rfl | ⟨1, _⟩ => rfl)

/-- The host's row maximum from minus infinity at row `r`: the fold of `max` over the ten classes. -/
theorem hmax_apply (L : FVec Ideal S512x10 .f32) (r : Fin 512) :
    Host.reduce FloatOps.maximumf L (constant S_ .f32 0xFF800000#32) reducesTo_S512x10_S512_d1 h_S_ (ix1 r)
      = rowMax (fun k => L (ix2 r k)) := by
  have h : S512x10.Reduces [1] S512 := by decide
  rw [Host.reduce_eq_fold_single FloatOps.maximumf L _ reducesTo_S512x10_S512_d1 h h_S_]
  unfold rowMax
  refine congrArg (fun f => (Finset.univ : Finset (Fin 10)).fold max ninf32 f) (funext fun k => congrArg L (funext fun a => Fin.ext ?_))
  match a with
  | ⟨0, _⟩ => rfl
  | ⟨1, _⟩ => rfl

/-- The same as an equality of length-512 vectors, the leading maximum with minus infinity absorbed. -/
theorem hmax_eq (L : FVec Ideal S512x10 .f32) :
    maximumf (F := Ideal) (φ := .f32) (fun _ : S512.Idx => ninf32)
        (Host.reduce (FloatOps.maximumf (F := Ideal) (φ := .f32)) L (constant (F := Ideal) S_ .f32 0xFF800000#32) reducesTo_S512x10_S512_d1 h_S_)
      = fun j : S512.Idx => rowMax (fun k => L (ix2 (j 0) k)) := by
  funext j
  obtain ⟨r, rfl⟩ : ∃ r : Fin 512, j = ix1 r := ⟨j 0, eq_ix1 j⟩
  show max ninf32 (Host.reduce (FloatOps.maximumf (F := Ideal) (φ := .f32)) L (constant (F := Ideal) S_ .f32 0xFF800000#32) reducesTo_S512x10_S512_d1 h_S_ (ix1 r)) = _
  rw [hmax_apply, ninf_max]

/-- The host's row sum from zero at row `r`: the sum over the ten classes. -/
theorem hsum_apply (X : FVec Ideal S512x10 .f32) (r : Fin 512) :
    Host.reduceAdd X (constant S_ .f32 0x00000000#32) reducesTo_S512x10_S512_d1 h_S_ (ix1 r) = ∑ k : Fin 10, X (ix2 r k) := by
  have h : S512x10.Reduces [1] S512 := by decide
  show Ideal.hostReduceAdd reducesTo_S512x10_S512_d1 X (Ideal.ofBits .f32 0x00000000#32) (ix1 r) = _
  rw [Ideal.hostReduceAdd_single reducesTo_S512x10_S512_d1 h X _ (ix1 r), Ideal.ofBits_zero_f32, zero_add]
  show ∑ k : Fin 10, X (h.lift (ix1 r) k) = _
  refine Finset.sum_congr rfl fun k _ => congrArg X (funext fun a => Fin.ext ?_)
  match a with
  | ⟨0, _⟩ => rfl
  | ⟨1, _⟩ => rfl

theorem hexp_apply {s : Shape} (x : FVec Ideal s .f32) (i : s.Idx) : Host.exp x i = Ideal.exp (x i) := rfl
theorem hlog_apply {s : Shape} (x : FVec Ideal s .f32) (i : s.Idx) : Host.log x i = Ideal.log (x i) := rfl

/-- The reference's log-softmax of `P·W + b` is the readout of the specification. -/
theorem ref_read (P : FVec Ideal S512x128 .f32) (W : FVec Ideal S128x10 .f32) (b : FVec Ideal S10 .f32) :
    subf (subf (addf (Host.dotGeneral dot_S512x128_S128x10_S512x10_1_0_0_1_n_n none P W)
          (broadcastInDim S512x10 ![0, 1] bcast_S1x10_S512x10_0_1 (broadcastInDim S1x10 ![1] bcast_S10_S1x10_1 b)))
        (broadcastInDim S512x10 ![0, 1] bcast_S512x1_S512x10_0_1 (broadcastInDim S512x1 ![0] bcast_S512_S512x1_0
          (maximumf (broadcastInDim S512 ![] bcast_S_S512 (constant S_ .f32 0xFF800000#32))
            (Host.reduce FloatOps.maximumf (addf (Host.dotGeneral dot_S512x128_S128x10_S512x10_1_0_0_1_n_n none P W)
                (broadcastInDim S512x10 ![0, 1] bcast_S1x10_S512x10_0_1 (broadcastInDim S1x10 ![1] bcast_S10_S1x10_1 b)))
              (constant S_ .f32 0xFF800000#32) reducesTo_S512x10_S512_d1 h_S_)))))
      (broadcastInDim S512x10 ![0, 1] bcast_S512x1_S512x10_0_1 (Host.log (broadcastInDim S512x1 ![0] bcast_S512_S512x1_0
        (Host.reduceAdd (Host.exp (subf (addf (Host.dotGeneral dot_S512x128_S128x10_S512x10_1_0_0_1_n_n none P W)
              (broadcastInDim S512x10 ![0, 1] bcast_S1x10_S512x10_0_1 (broadcastInDim S1x10 ![1] bcast_S10_S1x10_1 b)))
            (broadcastInDim S512x10 ![0, 1] bcast_S512x1_S512x10_0_1 (broadcastInDim S512x1 ![0] bcast_S512_S512x1_0
              (maximumf (broadcastInDim S512 ![] bcast_S_S512 (constant S_ .f32 0xFF800000#32))
                (Host.reduce FloatOps.maximumf (addf (Host.dotGeneral dot_S512x128_S128x10_S512x10_1_0_0_1_n_n none P W)
                    (broadcastInDim S512x10 ![0, 1] bcast_S1x10_S512x10_0_1 (broadcastInDim S1x10 ![1] bcast_S10_S1x10_1 b)))
                  (constant S_ .f32 0xFF800000#32) reducesTo_S512x10_S512_d1 h_S_))))))
          (constant S_ .f32 0x00000000#32) reducesTo_S512x10_S512_d1 h_S_))))
    = readArr P W (rowOf10 b) := by
  rw [biasP_eq b, ninfP_eq]
  generalize hL : addf (Host.dotGeneral dot_S512x128_S128x10_S512x10_1_0_0_1_n_n none P W) (fun i : S512x10.Idx => b (ix1 (i 1))) = L
  rw [hmax_eq L]
  rw [col2_eq, col2_eq, col1_eq, col1_eq]
  funext i
  obtain ⟨r, q, rfl⟩ : ∃ (r : Fin 512) (q : Fin 10), i = ix2 r q := ⟨i 0, i 1, eq_ix2 i⟩
  simp only [subf_apply, hlog_apply]
  rw [hsum_apply]
  simp only [hexp_apply, subf_apply]
  subst hL
  unfold readArr logSoftmaxRow logit rowOf10
  simp only [addf_apply, dotP_apply]

end Cert.ReferenceIdeal.Stages

end
-- ==== Proof.RefValue.lean ====
/-
  The reference program's result as the whole-network function of the launch arrays.

  The reference's run ends with its result at one composed term of host operations. Its edge stages, node stages and
  readout are rewritten into the specification's three stage functions; what is left between them are the gathers and
  scatter-adds, which the two programs share. Two rearrangements remain, both pointwise: the reference takes the `relu` of
  the first layer's nodes before gathering their rows where the kernel gathers first (a gather only re-indexes, so the two
  commute), and a trailing `relu` of a node stage is the specification's node stage with its last `relu` on.
-/
import proofs.«135350_j47502338294214_1_alg».proof.Proof.RefRun
import proofs.«135350_j47502338294214_1_alg».proof.Proof.RefStages

set_option maxRecDepth 16384

noncomputable section

namespace Cert.ReferenceIdeal.Val

open Cert.ReferenceIdeal Cert.ReferenceIdeal.Facts₀ Cert.ReferenceIdeal.Stages Cert.Gnn
open Idealize.ShloMosaic Idealize.ShloMosaic.TcCoe Idealize.SL.Sem Idealize.ShloMosaic.StableHlo Idealize.ShloMosaic.ValueIdx

/-! ## The four index-driven operations, as functions of the edge list and the graph assignment -/

/-- Row `k` of the 2 x 800000 edge list as a length-800000 vector. -/
def edgeRowOf (k : Nat) (hk : S2x800000.Slices ![k, 0] S1x800000) (ei : IVec S2x800000 32) : IVec S800000 32 :=
  shapeCast _ (extractStridedSlice S1x800000 ![k, 0] ei hk) shapeCasts_S1x800000_S800000

/-- A negative node index wrapped around, then viewed as a column of start indices. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Node rows gathered at the edges' sources. -/
def gS (ei : IVec S2x800000 32) (a : N128) : E128 :=
  Host.gather gather_S50000x128_S800000x1_S800000x128_1_0_n_n_0_1_1128 a (wrapCol (edgeRowOf 0 slices_S2x800000_S1x800000_0_0 ei))

/-- Node rows gathered at the edges' destinations. -/
def gD (ei : IVec S2x800000 32) (a : N128) : E128 :=
  Host.gather gather_S50000x128_S800000x1_S800000x128_1_0_n_n_0_1_1128 a (wrapCol (edgeRowOf 1 slices_S2x800000_S1x800000_1_0 ei))

/-- Edge rows added into their destination nodes, from zeros. -/
def sc (ei : IVec S2x800000 32) (u : E128) : N128 :=
  Host.scatterAdd (F := Ideal) (φ := .f32) scatter_S50000x128_S800000x1_S800000x128_1_0_0_1
    (broadcastInDim S50000x128 ![] bcast_S_S50000x128 (constant S_ .f32 0x00000000#32))
    (broadcastInDim S800000x1 ![0] bcast_S800000_S800000x1_0 (edgeRowOf 1 slices_S2x800000_S1x800000_1_0 ei)) u

/-- Node rows added into their graphs, from zeros. -/
def pool (bt : IVec S50000 32) (x : N128) : P128 :=
  Host.scatterAdd (F := Ideal) (φ := .f32) scatter_S512x128_S50000x1_S50000x128_1_0_0_1
    (broadcastInDim S512x128 ![] bcast_S_S512x128 (constant S_ .f32 0x00000000#32))
    (broadcastInDim S50000x1 ![0] bcast_S50000_S50000x1_0 bt) x

variable (m : (ℓ : Loc nD τ sig) → Buf (Elt Ideal) ℓ) (c : Dev nD)

/-- THE REFERENCE PROGRAM'S RESULT: the whole-network function of the launch arrays. -/
theorem result : Cert.ReferenceIdeal.RunP.res_main_v103 (F := Ideal) m c
    = net (gS (m ((c.tc : Thread nD τ).loc main_arg1))) (gD (m ((c.tc : Thread nD τ).loc main_arg1))) (sc (m ((c.tc : Thread nD τ).loc main_arg1))) (pool (m ((c.tc : Thread nD τ).loc main_arg2))) (m ((c.tc : Thread nD τ).loc main_arg0))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.RunP.res_main_v103
  rw [ref_read]
  rw [ref_edge, ref_edge]
  rw [ref_node, ref_node]
  rw [zeroN_eq]
  unfold net
  dsimp only
  rw [edgeArr_pre, nodeArr_pre_post]
  rfl

end Cert.ReferenceIdeal.Val

end
-- ==== Proof.lean ====
/-
  A two-layer message-passing network on a graph of 50000 nodes and 800000 edges, pooled into 512 graphs and read out by a
  log-softmax over ten classes: a Pallas program of five kernels (two edge stages, two node stages, the readout) among
  gathers and scatter-adds on the host, against a plain jnp reference.

  On the extended reals both programs compute one function of the launch arrays, `Cert.Gnn.net`. Every matrix product is
  a plain finite sum of products and every cast to the narrow float format is the identity, so each kernel's stored block
  is, row by row, the stage function of the specification; the blocks of a kernel tile its output array, so each region
  leaves the stage function of its whole input arrays; and the host operations between the regions (the gathers at the
  edges' sources and destinations, the scatter-adds into nodes and graphs) are the same operations in both programs,
  applied to equal arrays. The reference multiplies the joined row `[x_src, x_dst]` by a whole 256 x 128 matrix where the
  kernel multiplies the two halves separately and adds: a sum over 256 indices split into its two halves, valid on the
  extended reals with no finiteness assumed. It also takes the `relu` of the first layer's nodes before gathering their rows
  where the kernel gathers first; a gather only re-indexes, so the two commute. The precondition is never opened.

  The three frame claims are the generated frame of each kernel program and the reference's run with its result dropped;
  no operation was rewritten by the idealization, so there is nothing to preserve.
-/
import proofs.«135350_j47502338294214_1_alg».proof.Defs
import proofs.«135350_j47502338294214_1_alg».proof.Proof.Gen.Kernel
import proofs.«135350_j47502338294214_1_alg».proof.Proof.Gen.Kernel.Frame
import proofs.«135350_j47502338294214_1_alg».proof.Proof.Gen.KernelIdeal
import proofs.«135350_j47502338294214_1_alg».proof.Proof.Gen.KernelIdeal.Frame
import proofs.«135350_j47502338294214_1_alg».proof.Proof.Gen.ReferenceIdeal
import proofs.«135350_j47502338294214_1_alg».proof.Proof.Gen.Pre_finite_inputs
import proofs.«135350_j47502338294214_1_alg».proof.Proof.FrameResult
import proofs.«135350_j47502338294214_1_alg».proof.Proof.KernelValue
import proofs.«135350_j47502338294214_1_alg».proof.Proof.RefRun
import proofs.«135350_j47502338294214_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- From launch arrays that agree, the kernel program's result array and the reference's are the same whole-network
    function of them: the four index-driven operations are the same host operations in the two programs. -/
theorem algebraic : Cert.algebraic_KernelIdeal_ReferenceIdeal := by
  intro m ρ m' ρ' _ hagree
  refine ⟨fun c => Cert.KernelIdeal.Gen.W10 m ρ c (Proc.devRef .tc Cert.KernelIdeal.main_v69),
    Cert.KernelIdeal.GenP.frame_result m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13, h14, h15, h16, h17, h18, h19, h20⟩ := hagree c
  show _ = Cert.KernelIdeal.Gen.W10 m ρ c (Proc.devRef .tc Cert.KernelIdeal.main_v69)
  rw [Cert.ReferenceIdeal.Val.result m' c, Cert.KernelIdeal.Val.result m ρ c]
  rw [h0, h1, h2, h3, h4, h5, h6, h7, h8, h9, h10, h11, h12, h13, h14, h15, h16, h17, h18, h19, h20]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
